-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S1x16x1x1 : Shape := ⟨4, ![1, 16, 1, 1]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1x16x1x1 : S_.BroadcastsInDim S1x16x1x1 (![] : Fin 0 → Fin S1x16x1x1.rank)
  reducesTo_S1x16x1x1_S_d0_1_2_3 : S1x16x1x1.ReducesTo [0, 1, 2, 3] S_

variable [Facts]

def fn_part1 {F : FTy → Type} [FloatOps F] (main_arg4 : FVec F S1x16x1x1 .f32) (main_arg5 : FVec F S1x16x1x1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x16x1x1 .f32 := Host.absf main_arg4
  let main_cst_6 : FVec F S_ .f32 := constant S_ .f32 0x7F800000#32
  let main_v20 : FVec F S1x16x1x1 .f32 := broadcastInDim S1x16x1x1 ![] bcast_S_S1x16x1x1 main_cst_6
  let main_v21 : IVec S1x16x1x1 1 := cmpf .olt main_v19 main_v20
  let main_c_7 : IVec S_ 1 := constantI S_ 1 1#1
  let main_v22 : IVec S_ 1 := (fun x v => Host.reduce IntOp.andi x v reducesTo_S1x16x1x1_S_d0_1_2_3 h_S_) main_v21 main_c_7
  let main_v23 : IVec S_ 1 := andi main_v18 main_v22
  let main_v24 : FVec F S1x16x1x1 .f32 := Host.absf main_arg5
  let main_cst_8 : FVec F S_ .f32 := constant S_ .f32 0x7F800000#32
  let main_v25 : FVec F S1x16x1x1 .f32 := broadcastInDim S1x16x1x1 ![] bcast_S_S1x16x1x1 main_cst_8
  let main_v26 : IVec S1x16x1x1 1 := cmpf .olt main_v24 main_v25
  let main_c_9 : IVec S_ 1 := constantI S_ 1 1#1
  let main_v27 : IVec S_ 1 := (fun x v => Host.reduce IntOp.andi x v reducesTo_S1x16x1x1_S_d0_1_2_3 h_S_) main_v26 main_c_9
  let main_v28 : IVec S_ 1 := andi main_v23 main_v27
  main_v28

def fn {F : FTy → Type} [FloatOps F] (main_arg0 : FVec F S2x2048x1024 .f32) (main_arg1 : FVec F S3072x1024 .f32) (main_arg2 : FVec F S1024x1024 .f32) (main_arg3 : FVec F S1024 .f32) (main_arg4 : FVec F S1x16x1x1 .f32) (main_arg5 : FVec F S1x16x1x1 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S1x16x1x1 : Shape := ⟨4, ![1, 16, 1, 1]⟩
abbrev S2x16x2048x64 : Shape := ⟨4, ![2, 16, 2048, 64]⟩
abbrev S1x256x1024 : Shape := ⟨3, ![1, 256, 1024]⟩
abbrev S1x16x256x64 : Shape := ⟨4, ![1, 16, 256, 64]⟩
abbrev S256x1024 : Shape := ⟨2, ![256, 1024]⟩
abbrev S256x3072 : Shape := ⟨2, ![256, 3072]⟩
abbrev S256x64 : Shape := ⟨2, ![256, 64]⟩
abbrev S1x1x256x64 : Shape := ⟨4, ![1, 1, 256, 64]⟩
abbrev S1x1x512x64 : Shape := ⟨4, ![1, 1, 512, 64]⟩
abbrev S1x1x2048x64 : Shape := ⟨4, ![1, 1, 2048, 64]⟩
abbrev S1x1x1x1 : Shape := ⟨4, ![1, 1, 1, 1]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 14
  | .vmem => 27
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S1x16x1x1, .f32⟩
  | .hbm, ⟨5, _⟩ => ⟨S1x16x1x1, .f32⟩
  | .hbm, ⟨6, _⟩ => ⟨S3072x1024, .bf16⟩
  | .hbm, ⟨7, _⟩ => ⟨S1024x1024, .bf16⟩
  | .hbm, ⟨8, _⟩ => ⟨S2x16x2048x64, .bf16⟩
  | .hbm, ⟨9, _⟩ => ⟨S2x16x2048x64, .bf16⟩
  | .hbm, ⟨10, _⟩ => ⟨S2x16x2048x64, .bf16⟩
  | .hbm, ⟨11, _⟩ => ⟨S2x16x2048x64, .bf16⟩
  | .hbm, ⟨12, _⟩ => ⟨S1x1024, .f32⟩
  | .hbm, ⟨13, _⟩ => ⟨S2x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S3072x1024, .bf16⟩
  | .local _ .vmem, ⟨3, _⟩ => ⟨S1x16x256x64, .bf16⟩
  | .local _ .vmem, ⟨4, _⟩ => ⟨S1x16x256x64, .bf16⟩
  | .local _ .vmem, ⟨5, _⟩ => ⟨S1x16x256x64, .bf16⟩
  | .local _ .vmem, ⟨6, _⟩ => ⟨S1x16x256x64, .bf16⟩
  | .local _ .vmem, ⟨7, _⟩ => ⟨S1x16x256x64, .bf16⟩
  | .local _ .vmem, ⟨8, _⟩ => ⟨S1x16x256x64, .bf16⟩
  | .local _ .vmem, ⟨9, _⟩ => ⟨S1x1x512x64, .bf16⟩
  | .local _ .vmem, ⟨10, _⟩ => ⟨S1x1x512x64, .bf16⟩
  | .local _ .vmem, ⟨11, _⟩ => ⟨S1x1x2048x64, .bf16⟩
  | .local _ .vmem, ⟨12, _⟩ => ⟨S1x1x2048x64, .bf16⟩
  | .local _ .vmem, ⟨13, _⟩ => ⟨S1x1x2048x64, .bf16⟩
  | .local _ .vmem, ⟨14, _⟩ => ⟨S1x1x2048x64, .bf16⟩
  | .local _ .vmem, ⟨15, _⟩ => ⟨S1x1x1x1, .f32⟩
  | .local _ .vmem, ⟨16, _⟩ => ⟨S1x1x1x1, .f32⟩
  | .local _ .vmem, ⟨17, _⟩ => ⟨S1x1x1x1, .f32⟩
  | .local _ .vmem, ⟨18, _⟩ => ⟨S1x1x1x1, .f32⟩
  | .local _ .vmem, ⟨19, _⟩ => ⟨S1x1x512x64, .bf16⟩
  | .local _ .vmem, ⟨20, _⟩ => ⟨S1x1x512x64, .bf16⟩
  | .local _ .vmem, ⟨21, _⟩ => ⟨S1x16x256x64, .bf16⟩
  | .local _ .vmem, ⟨22, _⟩ => ⟨S1x16x256x64, .bf16⟩
  | .local _ .vmem, ⟨23, _⟩ => ⟨S1024x1024, .bf16⟩
  | .local _ .vmem, ⟨24, _⟩ => ⟨S1x1024, .f32⟩
  | .local _ .vmem, ⟨25, _⟩ => ⟨S1x256x1024, .f32⟩
  | .local _ .vmem, ⟨26, _⟩ => ⟨S1x256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem3_1 : DmaSem sig := 26

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![2, 16, 4], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1x1x512x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev grid2 : Pipeline.Grid := ⟨2, ![2, 8], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x16x256x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  slices_S256x3072_o0_0_S256x64 : S256x3072.Slices ![0, 0] S256x64
  inb_S1x16x256x64_S1x1x256x64_0_0_0_0 : ∀ a, (![0, 0, 0, 0] : Fin 4 → Nat) a + S1x1x256x64.size a ≤ S1x16x256x64.size a
  h_S1x1x256x64 : 0 < S1x1x256x64.numel
  shapeCasts_S1x1x256x64_S256x64 : S1x1x256x64.ShapeCasts S256x64
  shapeCasts_S256x64_S1x1x256x64 : S256x64.ShapeCasts S1x1x256x64
  packedbf16_S1x16x256x64_S1x1x256x64_0_0_0_0 : (Rect.unit (s := S1x16x256x64) ![0, 0, 0, 0] S1x1x256x64.size inb_S1x16x256x64_S1x1x256x64_0_0_0_0).PackedRows (EltTy.packing .bf16)
  slices_S256x3072_o0_1024_S256x64 : S256x3072.Slices ![0, 1024] S256x64
  slices_S256x3072_o0_2048_S256x64 : S256x3072.Slices ![0, 2048] S256x64
  slices_S256x3072_o0_64_S256x64 : S256x3072.Slices ![0, 64] S256x64
  inb_S1x16x256x64_S1x1x256x64_0_1_0_0 : ∀ a, (![0, 1, 0, 0] : Fin 4 → Nat) a + S1x1x256x64.size a ≤ S1x16x256x64.size a
  packedbf16_S1x16x256x64_S1x1x256x64_0_1_0_0 : (Rect.unit (s := S1x16x256x64) ![0, 1, 0, 0] S1x1x256x64.size inb_S1x16x256x64_S1x1x256x64_0_1_0_0).PackedRows (EltTy.packing .bf16)
  slices_S256x3072_o0_1088_S256x64 : S256x3072.Slices ![0, 1088] S256x64
  slices_S256x3072_o0_2112_S256x64 : S256x3072.Slices ![0, 2112] S256x64
  slices_S256x3072_o0_128_S256x64 : S256x3072.Slices ![0, 128] S256x64
  inb_S1x16x256x64_S1x1x256x64_0_2_0_0 : ∀ a, (![0, 2, 0, 0] : Fin 4 → Nat) a + S1x1x256x64.size a ≤ S1x16x256x64.size a
  packedbf16_S1x16x256x64_S1x1x256x64_0_2_0_0 : (Rect.unit (s := S1x16x256x64) ![0, 2, 0, 0] S1x1x256x64.size inb_S1x16x256x64_S1x1x256x64_0_2_0_0).PackedRows (EltTy.packing .bf16)
  slices_S256x3072_o0_1152_S256x64 : S256x3072.Slices ![0, 1152] S256x64
  slices_S256x3072_o0_2176_S256x64 : S256x3072.Slices ![0, 2176] S256x64
  slices_S256x3072_o0_192_S256x64 : S256x3072.Slices ![0, 192] S256x64
  inb_S1x16x256x64_S1x1x256x64_0_3_0_0 : ∀ a, (![0, 3, 0, 0] : Fin 4 → Nat) a + S1x1x256x64.size a ≤ S1x16x256x64.size a
  packedbf16_S1x16x256x64_S1x1x256x64_0_3_0_0 : (Rect.unit (s := S1x16x256x64) ![0, 3, 0, 0] S1x1x256x64.size inb_S1x16x256x64_S1x1x256x64_0_3_0_0).PackedRows (EltTy.packing .bf16)
  slices_S256x3072_o0_1216_S256x64 : S256x3072.Slices ![0, 1216] S256x64
  slices_S256x3072_o0_2240_S256x64 : S256x3072.Slices ![0, 2240] S256x64
  slices_S256x3072_o0_256_S256x64 : S256x3072.Slices ![0, 256] S256x64
  inb_S1x16x256x64_S1x1x256x64_0_4_0_0 : ∀ a, (![0, 4, 0, 0] : Fin 4 → Nat) a + S1x1x256x64.size a ≤ S1x16x256x64.size a
  packedbf16_S1x16x256x64_S1x1x256x64_0_4_0_0 : (Rect.unit (s := S1x16x256x64) ![0, 4, 0, 0] S1x1x256x64.size inb_S1x16x256x64_S1x1x256x64_0_4_0_0).PackedRows (EltTy.packing .bf16)
  slices_S256x3072_o0_1280_S256x64 : S256x3072.Slices ![0, 1280] S256x64
  slices_S256x3072_o0_2304_S256x64 : S256x3072.Slices ![0, 2304] S256x64
  slices_S256x3072_o0_320_S256x64 : S256x3072.Slices ![0, 320] S256x64
  inb_S1x16x256x64_S1x1x256x64_0_5_0_0 : ∀ a, (![0, 5, 0, 0] : Fin 4 → Nat) a + S1x1x256x64.size a ≤ S1x16x256x64.size a
  packedbf16_S1x16x256x64_S1x1x256x64_0_5_0_0 : (Rect.unit (s := S1x16x256x64) ![0, 5, 0, 0] S1x1x256x64.size inb_S1x16x256x64_S1x1x256x64_0_5_0_0).PackedRows (EltTy.packing .bf16)
  slices_S256x3072_o0_1344_S256x64 : S256x3072.Slices ![0, 1344] S256x64
  slices_S256x3072_o0_2368_S256x64 : S256x3072.Slices ![0, 2368] S256x64
  slices_S256x3072_o0_384_S256x64 : S256x3072.Slices ![0, 384] S256x64
  inb_S1x16x256x64_S1x1x256x64_0_6_0_0 : ∀ a, (![0, 6, 0, 0] : Fin 4 → Nat) a + S1x1x256x64.size a ≤ S1x16x256x64.size a
  packedbf16_S1x16x256x64_S1x1x256x64_0_6_0_0 : (Rect.unit (s := S1x16x256x64) ![0, 6, 0, 0] S1x1x256x64.size inb_S1x16x256x64_S1x1x256x64_0_6_0_0).PackedRows (EltTy.packing .bf16)
  slices_S256x3072_o0_1408_S256x64 : S256x3072.Slices ![0, 1408] S256x64
  slices_S256x3072_o0_2432_S256x64 : S256x3072.Slices ![0, 2432] S256x64
  slices_S256x3072_o0_448_S256x64 : S256x3072.Slices ![0, 448] S256x64
  inb_S1x16x256x64_S1x1x256x64_0_7_0_0 : ∀ a, (![0, 7, 0, 0] : Fin 4 → Nat) a + S1x1x256x64.size a ≤ S1x16x256x64.size a
  packedbf16_S1x16x256x64_S1x1x256x64_0_7_0_0 : (Rect.unit (s := S1x16x256x64) ![0, 7, 0, 0] S1x1x256x64.size inb_S1x16x256x64_S1x1x256x64_0_7_0_0).PackedRows (EltTy.packing .bf16)
  slices_S256x3072_o0_1472_S256x64 : S256x3072.Slices ![0, 1472] S256x64
  slices_S256x3072_o0_2496_S256x64 : S256x3072.Slices ![0, 2496] S256x64
  slices_S256x3072_o0_512_S256x64 : S256x3072.Slices ![0, 512] S256x64
  inb_S1x16x256x64_S1x1x256x64_0_8_0_0 : ∀ a, (![0, 8, 0, 0] : Fin 4 → Nat) a + S1x1x256x64.size a ≤ S1x16x256x64.size a
  packedbf16_S1x16x256x64_S1x1x256x64_0_8_0_0 : (Rect.unit (s := S1x16x256x64) ![0, 8, 0, 0] S1x1x256x64.size inb_S1x16x256x64_S1x1x256x64_0_8_0_0).PackedRows (EltTy.packing .bf16)
  slices_S256x3072_o0_1536_S256x64 : S256x3072.Slices ![0, 1536] S256x64
  slices_S256x3072_o0_2560_S256x64 : S256x3072.Slices ![0, 2560] S256x64
  slices_S256x3072_o0_576_S256x64 : S256x3072.Slices ![0, 576] S256x64
  inb_S1x16x256x64_S1x1x256x64_0_9_0_0 : ∀ a, (![0, 9, 0, 0] : Fin 4 → Nat) a + S1x1x256x64.size a ≤ S1x16x256x64.size a
  packedbf16_S1x16x256x64_S1x1x256x64_0_9_0_0 : (Rect.unit (s := S1x16x256x64) ![0, 9, 0, 0] S1x1x256x64.size inb_S1x16x256x64_S1x1x256x64_0_9_0_0).PackedRows (EltTy.packing .bf16)
  slices_S256x3072_o0_1600_S256x64 : S256x3072.Slices ![0, 1600] S256x64
  slices_S256x3072_o0_2624_S256x64 : S256x3072.Slices ![0, 2624] S256x64
  slices_S256x3072_o0_640_S256x64 : S256x3072.Slices ![0, 640] S256x64
  inb_S1x16x256x64_S1x1x256x64_0_10_0_0 : ∀ a, (![0, 10, 0, 0] : Fin 4 → Nat) a + S1x1x256x64.size a ≤ S1x16x256x64.size a
  packedbf16_S1x16x256x64_S1x1x256x64_0_10_0_0 : (Rect.unit (s := S1x16x256x64) ![0, 10, 0, 0] S1x1x256x64.size inb_S1x16x256x64_S1x1x256x64_0_10_0_0).PackedRows (EltTy.packing .bf16)
  slices_S256x3072_o0_1664_S256x64 : S256x3072.Slices ![0, 1664] S256x64
  slices_S256x3072_o0_2688_S256x64 : S256x3072.Slices ![0, 2688] S256x64
  slices_S256x3072_o0_704_S256x64 : S256x3072.Slices ![0, 704] S256x64
  inb_S1x16x256x64_S1x1x256x64_0_11_0_0 : ∀ a, (![0, 11, 0, 0] : Fin 4 → Nat) a + S1x1x256x64.size a ≤ S1x16x256x64.size a
  packedbf16_S1x16x256x64_S1x1x256x64_0_11_0_0 : (Rect.unit (s := S1x16x256x64) ![0, 11, 0, 0] S1x1x256x64.size inb_S1x16x256x64_S1x1x256x64_0_11_0_0).PackedRows (EltTy.packing .bf16)
  slices_S256x3072_o0_1728_S256x64 : S256x3072.Slices ![0, 1728] S256x64
  slices_S256x3072_o0_2752_S256x64 : S256x3072.Slices ![0, 2752] S256x64
  slices_S256x3072_o0_768_S256x64 : S256x3072.Slices ![0, 768] S256x64
  inb_S1x16x256x64_S1x1x256x64_0_12_0_0 : ∀ a, (![0, 12, 0, 0] : Fin 4 → Nat) a + S1x1x256x64.size a ≤ S1x16x256x64.size a
  packedbf16_S1x16x256x64_S1x1x256x64_0_12_0_0 : (Rect.unit (s := S1x16x256x64) ![0, 12, 0, 0] S1x1x256x64.size inb_S1x16x256x64_S1x1x256x64_0_12_0_0).PackedRows (EltTy.packing .bf16)
  slices_S256x3072_o0_1792_S256x64 : S256x3072.Slices ![0, 1792] S256x64
  slices_S256x3072_o0_2816_S256x64 : S256x3072.Slices ![0, 2816] S256x64
  slices_S256x3072_o0_832_S256x64 : S256x3072.Slices ![0, 832] S256x64
  inb_S1x16x256x64_S1x1x256x64_0_13_0_0 : ∀ a, (![0, 13, 0, 0] : Fin 4 → Nat) a + S1x1x256x64.size a ≤ S1x16x256x64.size a
  packedbf16_S1x16x256x64_S1x1x256x64_0_13_0_0 : (Rect.unit (s := S1x16x256x64) ![0, 13, 0, 0] S1x1x256x64.size inb_S1x16x256x64_S1x1x256x64_0_13_0_0).PackedRows (EltTy.packing .bf16)
  slices_S256x3072_o0_1856_S256x64 : S256x3072.Slices ![0, 1856] S256x64
  slices_S256x3072_o0_2880_S256x64 : S256x3072.Slices ![0, 2880] S256x64
  slices_S256x3072_o0_896_S256x64 : S256x3072.Slices ![0, 896] S256x64
  inb_S1x16x256x64_S1x1x256x64_0_14_0_0 : ∀ a, (![0, 14, 0, 0] : Fin 4 → Nat) a + S1x1x256x64.size a ≤ S1x16x256x64.size a
  packedbf16_S1x16x256x64_S1x1x256x64_0_14_0_0 : (Rect.unit (s := S1x16x256x64) ![0, 14, 0, 0] S1x1x256x64.size inb_S1x16x256x64_S1x1x256x64_0_14_0_0).PackedRows (EltTy.packing .bf16)
  slices_S256x3072_o0_1920_S256x64 : S256x3072.Slices ![0, 1920] S256x64
  slices_S256x3072_o0_2944_S256x64 : S256x3072.Slices ![0, 2944] S256x64
  slices_S256x3072_o0_960_S256x64 : S256x3072.Slices ![0, 960] S256x64
  inb_S1x16x256x64_S1x1x256x64_0_15_0_0 : ∀ a, (![0, 15, 0, 0] : Fin 4 → Nat) a + S1x1x256x64.size a ≤ S1x16x256x64.size a
  packedbf16_S1x16x256x64_S1x1x256x64_0_15_0_0 : (Rect.unit (s := S1x16x256x64) ![0, 15, 0, 0] S1x1x256x64.size inb_S1x16x256x64_S1x1x256x64_0_15_0_0).PackedRows (EltTy.packing .bf16)
  slices_S256x3072_o0_1984_S256x64 : S256x3072.Slices ![0, 1984] S256x64
  slices_S256x3072_o0_3008_S256x64 : S256x3072.Slices ![0, 3008] S256x64
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S512x2048_S512 : S512x2048.Reduces [1] S512
  shapeCasts_S512_S512x1 : S512.ShapeCasts S512x1
  inb_S1x1x1x1_S1x1x1x1_0_0_0_0 : ∀ a, (![0, 0, 0, 0] : Fin 4 → Nat) a + S1x1x1x1.size a ≤ S1x1x1x1.size a
  h_S1x1x1x1 : 0 < S1x1x1x1.numel
  inpos_S1x1x1x1_p0_0_0_0 : ∀ a, (![0, 0, 0, 0] : Fin 4 → Nat) a < S1x1x1x1.size a
  broadcasts_S512x1_S512x2048 : S512x1.Broadcasts S512x2048
  shapeCasts_S512x64_S1x1x512x64 : S512x64.ShapeCasts S1x1x512x64
  packedbf16_S1x1x512x64_S1x1x512x64_0_0_0_0 : (Rect.unit (s := S1x1x512x64) ![0, 0, 0, 0] S1x1x512x64.size inb_S1x1x512x64_S1x1x512x64_0_0_0_0).PackedRows (EltTy.packing .bf16)
  shapeCasts_S1024_S1x1024 : S1024.ShapeCasts S1x1024
  concatenates_S256x64_S256x64_S256x64_S256x64_S256x64_S256x64_S256x64_S256x64_S256x64_S256x64_S256x64_S256x64_S256x64_S256x64_S256x64_S256x64_S256x1024_d1 : Shape.Concatenates [S256x64, S256x64, S256x64, S256x64, S256x64, S256x64, S256x64, S256x64, S256x64, S256x64, S256x64, S256x64, S256x64, S256x64, S256x64, S256x64] S256x1024 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1024_S1x256x1024 : S256x1024.ShapeCasts S1x256x1024
  dot_S256x1024_S3072x1024_S256x3072_1_1_0_0_n_n_wf : DotDims.WF S256x1024 S3072x1024 S256x3072 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S2x2048x1024.size a
  hwx0_0 : ∀ i : grid0.Coords, EltTy.bits .f32 = 32 ∨ (Rect.block (s := S2x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256x64.size a ≤ S2x16x2048x64.size a
  hwx0_2 : ∀ i : grid0.Coords, EltTy.bits .bf16 = 32 ∨ (Rect.block (s := S2x16x2048x64) S1x16x256x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x256x64.size a ≤ S2x16x2048x64.size a
  hwx0_3 : ∀ i : grid0.Coords, EltTy.bits .bf16 = 32 ∨ (Rect.block (s := S2x16x2048x64) S1x16x256x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256x64.size a ≤ S2x16x2048x64.size a
  hwx0_4 : ∀ i : grid0.Coords, EltTy.bits .bf16 = 32 ∨ (Rect.block (s := S2x16x2048x64) S1x16x256x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x64.size a ≤ S2x16x2048x64.size a
  hwx1_0 : ∀ i : grid1.Coords, EltTy.bits .bf16 = 32 ∨ (Rect.block (s := S2x16x2048x64) S1x1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S2x16x2048x64.size a
  hwx1_1 : ∀ i : grid1.Coords, EltTy.bits .bf16 = 32 ∨ (Rect.block (s := S2x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S2x16x2048x64.size a
  hwx1_2 : ∀ i : grid1.Coords, EltTy.bits .bf16 = 32 ∨ (Rect.block (s := S2x16x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1x1.size a ≤ S1x16x1x1.size a
  hwx1_3 : ∀ i : grid1.Coords, EltTy.bits .f32 = 32 ∨ (Rect.block (s := S1x16x1x1) S1x1x1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1x1.size a ≤ S1x16x1x1.size a
  hwx1_4 : ∀ i : grid1.Coords, EltTy.bits .f32 = 32 ∨ (Rect.block (s := S1x16x1x1) S1x1x1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x512x64.size a ≤ S2x16x2048x64.size a
  hwx1_5 : ∀ i : grid1.Coords, EltTy.bits .bf16 = 32 ∨ (Rect.block (s := S2x16x2048x64) S1x1x512x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x256x64.size a ≤ S2x16x2048x64.size a
  hwx2_0 : ∀ i : grid2.Coords, EltTy.bits .bf16 = 32 ∨ (Rect.block (s := S2x16x2048x64) S1x16x256x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x256x1024.size a ≤ S2x2048x1024.size a
  hwx2_3 : ∀ i : grid2.Coords, EltTy.bits .f32 = 32 ∨ (Rect.block (s := S2x2048x1024) S1x256x1024.size (cc2_transform_3 i) (hinb2_3 i)).WholeWords (EltTy.packing .f32)

variable [Facts₀]

def dot_S256x1024_S3072x1024_S256x3072_1_1_0_0_n_n : DotDims S256x1024 S3072x1024 S256x3072 where
  lhsContracting := [1]
  rhsContracting := [1]
  lhsNonContracting := [0]
  rhsNonContracting := [0]
  lhsBatch := []
  rhsBatch := []
  wf := dot_S256x1024_S3072x1024_S256x3072_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x16x256x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x16x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x16x256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S1x1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1x1x1x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S1x1x1x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x1x512x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v3) S1x16x256x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x256x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S1x16x1x1 : Shape := ⟨4, ![1, 16, 1, 1]⟩
abbrev S2x2048x3072 : Shape := ⟨3, ![2, 2048, 3072]⟩
abbrev S2x2048x3x16x64 : Shape := ⟨5, ![2, 2048, 3, 16, 64]⟩
abbrev S2x2048x1x16x64 : Shape := ⟨5, ![2, 2048, 1, 16, 64]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S1x16x1x1, .f32⟩
  | .hbm, ⟨5, _⟩ => ⟨S1x16x1x1, .f32⟩
  | .hbm, ⟨6, _⟩ => ⟨S2x2048x3072, .f32⟩
  | .hbm, ⟨7, _⟩ => ⟨S2x2048x3x16x64, .f32⟩
  | .hbm, ⟨8, _⟩ => ⟨S2x2048x1x16x64, .f32⟩
  | .hbm, ⟨9, _⟩ => ⟨S2x2048x16x64, .f32⟩
  | .hbm, ⟨10, _⟩ => ⟨S2x16x2048x64, .f32⟩
  | .hbm, ⟨11, _⟩ => ⟨S2x2048x1x16x64, .f32⟩
  | .hbm, ⟨12, _⟩ => ⟨S2x2048x16x64, .f32⟩
  | .hbm, ⟨13, _⟩ => ⟨S2x16x2048x64, .f32⟩
  | .hbm, ⟨14, _⟩ => ⟨S2x2048x1x16x64, .f32⟩
  | .hbm, ⟨15, _⟩ => ⟨S2x2048x16x64, .f32⟩
  | .hbm, ⟨16, _⟩ => ⟨S2x16x2048x64, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S2x16x2048x1, .f32⟩
  | .hbm, ⟨22, _⟩ => ⟨S2x16x2048x1, .f32⟩
  | .hbm, ⟨23, _⟩ => ⟨S_, .f32⟩
  | .hbm, ⟨24, _⟩ => ⟨S2x16x2048x1, .f32⟩
  | .hbm, ⟨25, _⟩ => ⟨S2x16x2048x1, .f32⟩
  | .hbm, ⟨26, _⟩ => ⟨S2x16x2048x2048, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S2x16x2048x64, .f32⟩
  | .hbm, ⟨33, _⟩ => ⟨S2x2048x16x64, .f32⟩
  | .hbm, ⟨34, _⟩ => ⟨S2x2048x1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  shapeCasts_S2x2048x3072_S2x2048x3x16x64 : S2x2048x3072.ShapeCasts S2x2048x3x16x64
  slices_S2x2048x3x16x64_S2x2048x1x16x64_0_0_0_0_0 : S2x2048x3x16x64.Slices ![0, 0, 0, 0, 0] S2x2048x1x16x64
  shapeCasts_S2x2048x1x16x64_S2x2048x16x64 : S2x2048x1x16x64.ShapeCasts S2x2048x16x64
  transposes_S2x2048x16x64_S2x16x2048x64_0_2_1_3 : S2x2048x16x64.Transposes [0, 2, 1, 3] S2x16x2048x64
  slices_S2x2048x3x16x64_S2x2048x1x16x64_0_0_1_0_0 : S2x2048x3x16x64.Slices ![0, 0, 1, 0, 0] S2x2048x1x16x64
  slices_S2x2048x3x16x64_S2x2048x1x16x64_0_0_2_0_0 : S2x2048x3x16x64.Slices ![0, 0, 2, 0, 0] S2x2048x1x16x64
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  bcast_S2x16x2048x1_S2x16x2048x2048_0_1_2_3 : S2x16x2048x1.BroadcastsInDim S2x16x2048x2048 (![0, 1, 2, 3] : Fin 4 → Fin S2x16x2048x2048.rank)
  bcast_S1x16x1x1_S2x16x2048x2048_0_1_2_3 : S1x16x1x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.Spec.lean ====
/-
  The attention block as functions of its argument arrays, entry by entry, on the extended reals.

  From an input x [2, 2048, 1024] and a weight w [3072, 1024] (outputs × inputs) the projection
  P(b, n, o) = Σ_m x(b, n, m) · w(o, m) is split into three arrays of heads [2, 16, 2048, 64]: the entry
  (b, h, n, d) of the s-th one (s = 0, 1, 2 for queries, keys, values) is P(b, n, s·1024 + h·64 + d).
  For queries q, keys k, values v, a gain g and an offset β per head:
    dots(b, h, i, j) = Σ_d q(b, h, i, d) · k(b, h, j, d),
    den(b, h, i)     = max(√(0 + Σ_j dots(b, h, i, j)²), ε),
    a(b, h, i, j)    = dots(b, h, i, j) / den(b, h, i) · g(h) + β(h),
    ctx(b, h, i, d)  = Σ_j a(b, h, i, j) · v(b, h, j, d),
  and the output is  out(b, n, o) = Σ_m ctx(b, m / 64, n, m % 64) · w'(o, m) + bias(o)  for a second weight
  w' [1024, 1024]: the heads laid side by side along the contracted axis, head-major.
  ε is the float word 0x2B8CBCCC, kept as a word: it is the same on both sides and never evaluated.
  Nothing here knows a program.
-/
import Idealize.ShloMosaic.PureOps.Ideal
import Idealize.ShloMosaic.Lib.ValueIdx

noncomputable section

open scoped BigOperators

namespace Cert.Spec

open Idealize.ShloMosaic Idealize.ShloMosaic.ValueIdx

/-- The shapes of the block, by their extents. -/
abbrev SX : Shape := ⟨3, ![2, 2048, 1024]⟩
abbrev SWqkv : Shape := ⟨2, ![3072, 1024]⟩
abbrev SWout : Shape := ⟨2, ![1024, 1024]⟩
abbrev SBias : Shape := ⟨1, ![1024]⟩
abbrev SBiasRow : Shape := ⟨2, ![1, 1024]⟩
abbrev SGain : Shape := ⟨4, ![1, 16, 1, 1]⟩
abbrev SHeads : Shape := ⟨4, ![2, 16, 2048, 64]⟩

/-- The floor under the norm, as its float word read on the extended reals. -/
abbrev eps : EReal := Ideal.ofBits .f32 0x2B8CBCCC#32

/-- The zero word a sum starts from. -/
abbrev zero : EReal := Ideal.ofBits .f32 0x00000000#32

/-- Column s·1024 + h·64 + d of the projection: head h, lane d of section s. -/
def headCol (s : Fin 3) (h : Fin 16) (d : Fin 64) : Fin 3072 :=
  ⟨s.val * 1024 + h.val * 64 + d.val, by have := s.isLt; have := h.isLt; have := d.isLt; omega⟩

theorem headCol_val (s : Fin 3) (h : Fin 16) (d : Fin 64) : (headCol s h d).val = s.val * 1024 + h.val * 64 + d.val := rfl

/-- The projection P(b, n, o) = Σ_m x(b, n, m) · w(o, m). -/
def proj (x : SX.Idx → EReal) (w : SWqkv.Idx → EReal) (b : Fin 2) (n : Fin 2048) (o : Fin 3072) : EReal :=
  ∑ m : Fin 1024, x (ix3 b n m) * w (ix2 o m)

/-- Section s of the projection as an array of heads, at coordinates. -/
def headsAt (s : Fin 3) (x : SX.Idx → EReal) (w : SWqkv.Idx → EReal) (b : Fin 2) (h : Fin 16) (n : Fin 2048) (d : Fin 64) : EReal :=
  proj x w b n (headCol s h d)

/-- Section s of the projection as an array [2, 16, 2048, 64]. -/
def heads (s : Fin 3) (x : SX.Idx → EReal) (w : SWqkv.Idx → EReal) : SHeads.Idx → EReal :=
  fun i => headsAt s x w (i 0) (i 1) (i 2) (i 3)

theorem heads_apply (s : Fin 3) (x : SX.Idx → EReal) (w : SWqkv.Idx → EReal) (b : Fin 2) (h : Fin 16) (n : Fin 2048) (d : Fin 64) :
    heads s x w (ix4 b h n d) = headsAt s x w b h n d := rfl

/-- dots(b, h, i, j) = Σ_d q(b, h, i, d) · k(b, h, j, d). -/
def dots (q k : SHeads.Idx → EReal) (b : Fin 2) (h : Fin 16) (i j : Fin 2048) : EReal :=
  ∑ d : Fin 64, q (ix4 b h i d) * k (ix4 b h j d)

/-- den(b, h, i) = max(√(0 + Σ_j dots²), ε). -/
def den (q k : SHeads.Idx → EReal) (b : Fin 2) (h : Fin 16) (i : Fin 2048) : EReal :=
  max (Ideal.sqrt (zero + ∑ j : Fin 2048, dots q k b h i j * dots q k b h i j)) eps

/-- a(b, h, i, j) = dots / den · g(h) + β(h). -/
def weight (q k : SHeads.Idx → EReal) (g β : SGain.Idx → EReal) (b : Fin 2) (h : Fin 16) (i j : Fin 2048) : EReal :=
  Ideal.div (dots q k b h i j) (den q k b h i) * g (ix4 (0 : Fin 1) h (0 : Fin 1) (0 : Fin 1))
    + β (ix4 (0 : Fin 1) h (0 : Fin 1) (0 : Fin 1))

/-- ctx(b, h, i, d) = Σ_j a(b, h, i, j) · v(b, h, j, d), at coordinates. -/
def ctxAt (q k v : SHeads.Idx → EReal) (g β : SGain.Idx → EReal) (b : Fin 2) (h : Fin 16) (i : Fin 2048) (d : Fin 64) : EReal :=
  ∑ j : Fin 2048, weight q k g β b h i j * v (ix4 b h j d)

/-- The context as an array [2, 16, 2048, 64]. -/
def ctx (q k v : SHeads.Idx → EReal) (g β : SGain.Idx → EReal) : SHeads.Idx → EReal :=
  fun i => ctxAt q k v g β (i 0) (i 1) (i 2) (i 3)

theorem ctx_apply (q k v : SHeads.Idx → EReal) (g β : SGain.Idx → EReal) (b : Fin 2) (h : Fin 16) (i : Fin 2048) (d : Fin 64) :
    ctx q k v g β (ix4 b h i d) = ctxAt q k v g β b h i d := rfl

/-- Head m / 64 and lane m % 64 of a position m along the 1024 merged columns. -/
def headOf (m : Fin 1024) : Fin 16 := ⟨m.val / 64, by have := m.isLt; omega⟩
def laneOf (m : Fin 1024) : Fin 64 := ⟨m.val % 64, by omega⟩

/-- out(b, n, o) = Σ_m a(b, m / 64, n, m % 64) · w'(o, m) + bias(o), at coordinates. -/
def outAt (a : SHeads.Idx → EReal) (w : SWout.Idx → EReal) (bias : SBias.Idx → EReal) (b : Fin 2) (n : Fin 2048) (o : Fin 1024) : EReal :=
  (∑ m : Fin 1024, a (ix4 b (headOf m) n (laneOf m)) * w (ix2 o m)) + bias (ix1 o)

/-- The output array [2, 2048, 1024]. -/
def out (a : SHeads.Idx → EReal) (w : SWout.Idx → EReal) (bias : SBias.Idx → EReal) : SX.Idx → EReal :=
  fun i => outAt a w bias (i 0) (i 1) (i 2)

theorem out_apply (a : SHeads.Idx → EReal) (w : SWout.Idx → EReal) (bias : SBias.Idx → EReal) (b : Fin 2) (n : Fin 2048) (o : Fin 1024) :
    out a w bias (ix3 b n o) = outAt a w bias b n o := rfl

/-- The bias kept as one row [1, 1024], read as a vector. -/
def rowVec (r : SBiasRow.Idx → EReal) : SBias.Idx → EReal := fun u => r (ix2 (0 : Fin 1) (u 0))

theorem rowVec_apply (r : SBiasRow.Idx → EReal) (o : Fin 1024) : rowVec r (ix1 o) = r (ix2 (0 : Fin 1) o) := rfl

/-- The whole block: projection, three sections of heads, normalized attention, output projection. -/
def block (x : SX.Idx → EReal) (wqkv : SWqkv.Idx → EReal) (wout : SWout.Idx → EReal) (bias : SBias.Idx → EReal)
    (g β : SGain.Idx → EReal) : SX.Idx → EReal :=
  out (ctx (heads 0 x wqkv) (heads 1 x wqkv) (heads 2 x wqkv) g β) wout bias

end Cert.Spec

end
-- ==== Proof.LibAttnRead.lean ====
/-
  Vector operations of rank-3 literal shapes read at an index built from coordinates, at the extended reals:
  a product contracting one axis with the operands' index maps named by the caller; the maximum and the sum
  along the last axis of an a × b × c array; a rank-2 array given a trailing unit axis and a trailing unit axis
  broadcast along the lanes; a leading unit axis broadcast; the two leading axes of a rank-3 array merged into
  one and split again.  Nothing here knows a program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.AttnRead

open Idealize.ShloMosaic Idealize.ShloMosaic.ValueIdx

variable {α : Type}

/-- A product into the zero accumulator contracting ONE axis of extent `K`, read at the output index `j`: when the
    operands' indices at `j` and contraction coordinate `k` are `L k` and `R k`, the entry is Σ_k lhs (L k) · rhs (R k). -/
theorem matmul_zero_single_apply {sl sr so : Shape} {φ₁ φ₂ : FTy} {K : ℕ} (D : DotDims sl sr so)
    (prec : Option ContractPrecision) (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The maximum along the last axis of an `a × b × c` array, from the word `0xFF800000`, is at `(p, q)` the fold of
    `max` over the entries `(p, q, ·)`. -/
theorem laneMax3_apply {a b c : ℕ} (src : FVec Ideal ⟨3, ![a, b, c]⟩ .f32)
    (h : (⟨3, ![a, b, c]⟩ : Shape).Reduces [2] ⟨2, ![a, b]⟩) (hφ : FKind.Formats .f32)
    (hacc : (0xFF800000#32 : BitVec FTy.f32.bits) = FKind.maximumf.neutral .f32 hφ) (p : Fin a) (q : Fin b) :
    multiReduction .maximumf [2] ⟨2, ![a, b]⟩ src 0xFF800000#32 h hφ hacc (ix2 p q)
      = (Finset.univ : Finset (Fin c)).fold max (Ideal.ofBits .f32 0xFF800000#32) (fun k => src (ix3 p q k)) := by
  refine (Ideal.multiReduction_maximumf_single src 0xFF800000#32 h hφ hacc (ix2 p q)).trans ?_
  show (Finset.univ : Finset (Fin c)).fold max (Ideal.ofBits .f32 0xFF800000#32) (fun k => src (h.lift (ix2 p q) k)) = _
  refine congrArg (fun f => Finset.fold max (Ideal.ofBits .f32 0xFF800000#32) f (Finset.univ : Finset (Fin c)))
    (funext fun k => congrArg src (funext fun d => Fin.ext ?_))
  match d with
  | ⟨0, _⟩ => rfl
  | ⟨1, _⟩ => rfl
  | ⟨2, _⟩ => rfl

/-- The sum along the last axis of an `a × b × c` array, from the zero word, is at `(p, q)` the finite sum of the
    entries `(p, q, ·)`. -/
theorem laneSum3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec FTy.f32.bits) = FKind.add.neutral .f32 hφ) (p : Fin a) (q : Fin b) :
    multiReduction .add [2] ⟨2, ![a, b]⟩ src 0x00000000#32 h hφ hacc (ix2 p q) = ∑ k : Fin c, src (ix3 p q k) := by
  refine (Ideal.multiReduction_add_single src 0x00000000#32 h hφ hacc (ix2 p q)).trans ?_
  show ∑ k : Fin c, src (h.lift (ix2 p q) k) = _
  refine Finset.sum_congr rfl fun k _ => congrArg src (funext fun d => Fin.ext ?_)
  match d with
  | ⟨0, _⟩ => rfl
  | ⟨1, _⟩ => rfl
  | ⟨2, _⟩ => rfl

/-- An `a × b` array given a trailing unit axis reads, at `(p, q, 0)`, the array at `(p, q)`. -/
theorem shapeCast_ab_ab1_apply {a b : ℕ} (v : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ v h (ix3 p q z) = v (ix2 p q) :=
  shapeCast_apply v h _ _ (by
    have hz : z.val = 0 := by omega
    rw [Shape.rowMajor_val_three, Shape.rowMajor_val_two]
    show p.val * b + q.val = (p.val * b + q.val) * 1 + z.val
    omega)

/-- An `a × b × 1` array broadcast along the lanes to `a × b × c` reads, at `(p, q, k)`, the array at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `1 × a × b` array broadcast along a new leading extent `m` reads, at `(u, i, j)`, the array at `(0, i, j)`. -/
theorem broadcastTo_1ab_mab_apply {m a b : ℕ} (v : (⟨3, ![1, a, b]⟩ : Shape).Idx → α)
    (h : (⟨3, ![1, a, b]⟩ : Shape).Broadcasts ⟨3, ![m, a, b]⟩) (u : Fin m) (i : Fin a) (j : Fin b) :
    broadcastTo ⟨3, ![m, a, b]⟩ v h (ix3 u i j) = v (ix3 (0 : Fin 1) i j) := by
  refine broadcastTo_apply v h (ix3 u i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- An `n × c` array, `n = a · b`, viewed as `a × b × c` reads, at `(p, q, r)`, the array at row `p · b + q`. -/
theorem shapeCast_split_apply {a b c n : ℕ} (x : (⟨2, ![n, c]⟩ : Shape).Idx → α)
    (h : (⟨2, ![n, c]⟩ : Shape).ShapeCasts ⟨3, ![a, b, c]⟩) (p : Fin a) (q : Fin b) (r : Fin c) (pq : Fin n)
    (hpq : pq.val = p.val * b + q.val) : shapeCast ⟨3, ![a, b, c]⟩ x h (ix3 p q r) = x (ix2 pq r) :=
  shapeCast_apply x h _ _ (by
    rw [Shape.rowMajor_val_three, Shape.rowMajor_val_two]
    show pq.val * c + r.val = (p.val * b + q.val) * c + r.val
    rw [hpq])

/-- An `a × b × c` array viewed as `n × c`, `n = a · b`, reads, at row `p · b + q`, the array at `(p, q, r)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (r : Fin c) (pq : Fin n)
    (hpq : pq.val = p.val * b + q.val) : shapeCast ⟨2, ![n, c]⟩ x h (ix2 pq r) = x (ix3 p q r) :=
  shapeCast_apply x h _ _ (by
    rw [Shape.rowMajor_val_three, Shape.rowMajor_val_two]
    show (p.val * b + q.val) * c + r.val = pq.val * c + r.val
    rw [hpq])

end Cert.AttnRead

end
-- ==== Proof.LibRowsByRows.lean ====
/-
  Two reads at an entry (p, u), on the extended reals.

  The product of an a × K array by a b × K array with the LAST axis of both contracted, formed into the zero
  accumulator, is the sum over k of lhs (p, k) · rhs (u, k): each output entry is the inner product of a row of
  the left operand with a ROW of the right one (a weight array kept as outputs × inputs).  The operands may be
  typed at any float formats.  The dimension record enters through its contracted rank and extent and four facts
  about where it sends an output index and a contraction index.

  A row of n numbers kept as a 1 × n array and repeated down a rows reads its entry u.

  Nothing here knows a program.
-/
import proofs.«163006_j84232898609328_2_alg».proof.Proof.LibAttnRead

noncomputable section

open scoped BigOperators

namespace Cert.RowsByRows

open Idealize.ShloMosaic Idealize.ShloMosaic.ValueIdx

variable {a b K : ℕ} {φ₁ φ₂ : FTy}

/-- Rows against rows: the entry (p, u) of the product is Σ_k lhs (p, k) · rhs (u, k). -/
theorem matmul_rows_rows_apply (D : DotDims ⟨2, ![a, K]⟩ ⟨2, ![b, K]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (lhs : FVec Ideal ⟨2, ![a, K]⟩ φ₁) (rhs : FVec Ideal ⟨2, ![b, K]⟩ φ₂) (p : Fin a) (u : Fin b) :
    FloatOps.matmul D prec lhs rhs (constant ⟨2, ![a, b]⟩ .f32 0x00000000#32) (ix2 p u)
      = ∑ k : Fin K, lhs (ix2 p k) * rhs (ix2 u k) := by
  refine Cert.AttnRead.matmul_zero_single_apply D prec hr hs lhs rhs (ix2 p u) (fun k => ix2 p k) (fun k => ix2 u k)
    (fun k => ?_) (fun k => ?_)
  · have hk := contrEquiv1_symm_val D K hr hs k
    funext ax
    apply Fin.ext
    match ax with
    | ⟨0, _⟩ => exact hl0 _ _
    | ⟨1, _⟩ => exact (hl1 _ _).trans hk
  · have hk := contrEquiv1_symm_val D K hr hs k
    funext ax
    apply Fin.ext
    match ax with
    | ⟨0, _⟩ => exact hr0 _ _
    | ⟨1, _⟩ => exact (hr1 _ _).trans hk

/-- A 1 × n row, cast to its own shape and repeated down a rows, reads at (p, u) the row's entry u. -/
theorem biasRow_apply {α : Type} {n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![a, n]⟩)
    (p : Fin a) (u : Fin n) :
    broadcastTo ⟨2, ![a, n]⟩ (shapeCast ⟨2, ![1, n]⟩ v hc) hb (ix2 p u) = v (ix2 (0 : Fin 1) u) := by
  rw [shapeCast_self]
  refine broadcastTo_apply v hb (ix2 p u) (ix2 (0 : Fin 1) u) fun ax => ?_
  match ax with
  | ⟨0, _⟩ => rfl
  | ⟨1, _⟩ =>
    show u.val = if n = 1 then 0 else u.val
    split
    · have := u.isLt; omega
    · rfl

end Cert.RowsByRows

end
-- ==== Proof.LibVecRead.lean ====
/-
  Vector operations of small literal shapes read at an index built from coordinates: a column made from a
  vector, a column broadcast over the lanes, a rectangular slice with offsets on both axes, a sum along the
  lanes as a finite sum, and the mask "row index equals lane index".  Nothing here knows a program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.VecRead

open Idealize.ShloMosaic Idealize.ShloMosaic.ValueIdx

variable {α : Type}

/-- A vector of length `a` viewed as an `a × 1` column reads, at `(r, 0)`, the vector at `r`. -/
theorem shapeCast_col_apply {a : ℕ} (v : (⟨1, ![a]⟩ : Shape).Idx → α) (h : (⟨1, ![a]⟩ : Shape).ShapeCasts ⟨2, ![a, 1]⟩)
    (r : Fin a) (z : Fin 1) : shapeCast ⟨2, ![a, 1]⟩ v h (ix2 r z) = v (ix1 r) :=
  shapeCast_apply v h _ _ (by
    have hz : z.val = 0 := by omega
    rw [Shape.rowMajor_val_one, Shape.rowMajor_val_two]
    show r.val = r.val * 1 + z.val
    omega)

/-- An `a × 1` column broadcast to `a × b` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A rectangular slice with unit strides reads, at `(r, c)`, the operand at `(o₀ + r, o₁ + c)`. -/
theorem slice2_apply {n0 n1 m0 m1 : ℕ} (o0 o1 : ℕ) (X : (⟨2, ![n0, n1]⟩ : Shape).Idx → α)
    (h : (⟨2, ![n0, n1]⟩ : Shape).Slices ![o0, o1] ⟨2, ![m0, m1]⟩) (r : Fin m0) (c : Fin m1) (r' : Fin n0) (c' : Fin n1)
    (hr : r'.val = o0 + r.val) (hc : c'.val = o1 + c.val) :
    extractStridedSlice ⟨2, ![m0, m1]⟩ ![o0, o1] X h (ix2 r c) = X (ix2 r' c') :=
  extractStridedSlice_apply _ X h _ _ fun ax => match ax with
    | ⟨0, _⟩ => hr
    | ⟨1, _⟩ => hc

/-- At the extended reals a sum along the lanes of an `a × b` array, from the zero word, is at row `r` the finite sum
    of the row's entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec FTy.f32.bits) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src (funext fun d => Fin.ext ?_)
  match d with
  | ⟨0, _⟩ => rfl
  | ⟨1, _⟩ => rfl

/-- The mask "row index = lane index" of an `n × n` tile, `n` below `2^32`. -/
theorem eyeMask_apply {n : ℕ} (hn : n ≤ 4294967296) (h0 : (⟨2, ![n, n]⟩ : Shape).Iotas .tc 32 [0]) (h1 : (⟨2, ![n, n]⟩ : Shape).Iotas .tc 32 [1])
    (r c : Fin n) :
    cmpi .eq (iota .tc ⟨2, ![n, n]⟩ 32 [0] h0) (iota .tc ⟨2, ![n, n]⟩ 32 [1] h1) (ix2 r c) = if r = c then 1#1 else 0#1 := by
  show IntOp.cmpi .eq (iota .tc ⟨2, ![n, n]⟩ 32 [0] h0 (ix2 r c)) (iota .tc ⟨2, ![n, n]⟩ 32 [1] h1 (ix2 r c)) = _
  rw [iota_single_apply, iota_single_apply]
  show BitVec.ofBool (BitVec.ofNat 32 r.val == BitVec.ofNat 32 c.val) = _
  have hr := r.isLt
  have hc := c.isLt
  by_cases e : r = c
  · subst e; simp
  · have : r.val ≠ c.val := fun hv => e (Fin.ext hv)
    have hne : BitVec.ofNat 32 r.val ≠ BitVec.ofNat 32 c.val := by
      intro hv
      have := congrArg BitVec.toNat hv
      simp only [BitVec.toNat_ofNat] at this
      rw [Nat.mod_eq_of_lt (by omega), Nat.mod_eq_of_lt (by omega)] at this
      exact ‹r.val ≠ c.val› this
    rw [if_neg e, beq_eq_false_iff_ne.mpr hne]
    rfl

/-- A select under that mask against the zero word, summed along the lanes, keeps the diagonal entry: every other
    term of the sum is zero. -/
theorem sum_eye_select {n : ℕ} (f : Fin n → EReal) (r : Fin n) :
    (∑ k : Fin n, Scalar.select (if r = k then 1#1 else 0#1) (f k) (0 : EReal)) = f r := by
  have : ∀ k : Fin n, Scalar.select (if r = k then 1#1 else 0#1) (f k) (0 : EReal) = if r = k then f k else 0 := by
    intro k; by_cases e : r = k <;> simp [e, Scalar.select]
  simp only [this, Finset.sum_ite_eq, Finset.mem_univ, if_true]

end Cert.VecRead

end
-- ==== Proof.ProjValue.lean ====
/-
  The fused projection's three outputs are the three sections of heads of the projection.

  A block of 256 rows of one batch element of x, as a 256 × 1024 array, is multiplied by the whole weight
  (outputs × inputs, the last axis of both contracted): entry (r, o) of the product is Σ_m x(r, m) · w(o, m).
  Head h of section s is the 256 × 64 rectangle of columns s·1024 + h·64 … + 63 of that product, stored as rows
  of head h of the s-th output block.  So entry (0, h, r, d) of the s-th output block is
  Σ_m x(r, m) · w(s·1024 + h·64 + d, m), and the blocks of the grid, 2 batch elements by 8 groups of 256 rows,
  tile the array of heads.
-/
import proofs.«163006_j84232898609328_2_alg».proof.Proof.Gen.KernelIdeal.Frame
import proofs.«163006_j84232898609328_2_alg».proof.Proof.Spec
import proofs.«163006_j84232898609328_2_alg».proof.Proof.LibRowsByRows
import proofs.«163006_j84232898609328_2_alg».proof.Proof.LibVecRead
import Idealize.ShloMosaic.Lib.Pipeline.Value
import Idealize.ShloMosaic.Lib.ValueIdx

noncomputable section

open scoped BigOperators

namespace Cert.KernelIdeal.ProjValue

open Idealize.ShloMosaic Idealize.ShloMosaic.TcCoe Idealize.SL.Sem Cert.KernelIdeal Cert.KernelIdeal.Gen
open Idealize.ShloMosaic.ValueIdx

/-! ## The product at an entry -/

/-- Where the product's dimension numbers send an output index and a contraction index: the left operand's row is
    the output's row, the right operand's row is the output's column, and both contracted coordinates are the
    contraction index. -/
theorem lhs_row (j : S256x3072.Idx) (q : dot_S256x1024_S3072x1024_S256x3072_1_1_0_0_n_n.contr.Idx) :
    (dot_S256x1024_S3072x1024_S256x3072_1_1_0_0_n_n.lhsIdx j q 0).val = (j 0).val := by
  unfold DotDims.lhsIdx
  rw [dif_neg (show ¬(0 : Fin S256x1024.rank) ∈ dot_S256x1024_S3072x1024_S256x3072_1_1_0_0_n_n.lhsBatch by decide),
    dif_pos (show (0 : Fin S256x1024.rank) ∈ dot_S256x1024_S3072x1024_S256x3072_1_1_0_0_n_n.lhsNonContracting by decide)]
  rfl
theorem lhs_contr (j : S256x3072.Idx) (q : dot_S256x1024_S3072x1024_S256x3072_1_1_0_0_n_n.contr.Idx) :
    (dot_S256x1024_S3072x1024_S256x3072_1_1_0_0_n_n.lhsIdx j q 1).val = (q ⟨0, by decide⟩).val :=
  dot_S256x1024_S3072x1024_S256x3072_1_1_0_0_n_n.lhsIdx_val_of_single rfl j q
theorem rhs_row (j : S256x3072.Idx) (q : dot_S256x1024_S3072x1024_S256x3072_1_1_0_0_n_n.contr.Idx) :
    (dot_S256x1024_S3072x1024_S256x3072_1_1_0_0_n_n.rhsIdx j q 0).val = (j 1).val := by
  unfold DotDims.rhsIdx
  rw [dif_neg (show ¬(0 : Fin S3072x1024.rank) ∈ dot_S256x1024_S3072x1024_S256x3072_1_1_0_0_n_n.rhsBatch by decide),
    dif_pos (show (0 : Fin S3072x1024.rank) ∈ dot_S256x1024_S3072x1024_S256x3072_1_1_0_0_n_n.rhsNonContracting by decide)]
  rfl
theorem rhs_contr (j : S256x3072.Idx) (q : dot_S256x1024_S3072x1024_S256x3072_1_1_0_0_n_n.contr.Idx) :
    (dot_S256x1024_S3072x1024_S256x3072_1_1_0_0_n_n.rhsIdx j q 1).val = (q ⟨0, by decide⟩).val :=
  dot_S256x1024_S3072x1024_S256x3072_1_1_0_0_n_n.rhsIdx_val_of_single rfl j q

/-- Entry (r, o) of the product of a block of x by the weight: Σ_m x(0, r, m) · w(o, m).  The changes of format
    are the identity on the extended reals; the block's leading unit axis is dropped by the row-major position. -/
theorem prod_apply (x0 : Vec Ideal S1x256x1024 .f32) (x1 : Vec Ideal S3072x1024 .bf16) (r : Fin 256) (o : Fin 3072) :
    k0_pay4 (F := Ideal) x0 x1 (ix2 r o) = ∑ m : Fin 1024, x0 (ix3 (0 : Fin 1) r m) * x1 (ix2 o m) := by
  unfold k0_pay4
  refine (Cert.RowsByRows.matmul_rows_rows_apply dot_S256x1024_S3072x1024_S256x3072_1_1_0_0_n_n none rfl rfl
    lhs_row lhs_contr rhs_row rhs_contr _ _ r o).trans ?_
  refine Finset.sum_congr rfl fun m _ => ?_
  refine congrArg₂ (· * ·) ?_ ?_
  · refine shapeCast_apply x0 shapeCasts_S1x256x1024_S256x1024 (ix2 r m) (ix3 (0 : Fin 1) r m) ?_
    rw [Shape.rowMajor_val_three, Shape.rowMajor_val_two]
    show ((0 : Fin 1).val * 256 + r.val) * 1024 + m.val = r.val * 1024 + m.val
    simp
  · exact congrFun (shapeCast_self x1 shapeCasts_S3072x1024_S3072x1024) (ix2 o m)

/-! ## A head's rectangle of the product, as stored -/

/-- Columns off … off + 63 of a 256 × 3072 array, given two leading unit axes, read at (0, 0, r, d) the array at
    (r, off + d): the cast keeps the row-major position, the slice shifts the column. -/
theorem headPiece_apply {α : Type} (off : ℕ) (X : S256x3072.Idx → α) (hs : S256x3072.Slices ![0, off] S256x64)
    (hc : S256x64.ShapeCasts S1x1x256x64) (z0 z1 : Fin 1) (r : Fin 256) (d : Fin 64) (o : Fin 3072)
    (ho : o.val = off + d.val) :
    shapeCast S1x1x256x64 (extractStridedSlice S256x64 ![0, off] X hs) hc (ix4 z0 z1 r d) = X (ix2 r o) := by
  refine (shapeCast_apply _ hc (ix4 z0 z1 r d) (ix2 r d) ?_).trans ?_
  · rw [Shape.rowMajor_val_two, Shape.rowMajor_val_four]
    show r.val * 64 + d.val = ((z0.val * 1 + z1.val) * 256 + r.val) * 64 + d.val
    omega
  · exact Cert.VecRead.slice2_apply 0 off X hs r d r o (by omega) ho

/-- Entry (h, r, d) of section s computed from a block of x and the weight: Σ_m x(0, r, m) · w(s·1024 + h·64 + d, m). -/
def entry (s : Fin 3) (x0 : Vec Ideal S1x256x1024 .f32) (x1 : Vec Ideal S3072x1024 .bf16) (h : Fin 16) (r : Fin 256)
    (d : Fin 64) : EReal :=
  ∑ m : Fin 1024, x0 (ix3 (0 : Fin 1) r m) * x1 (ix2 (Cert.Spec.headCol s h d) m)

/-- The s-th output block as one function of its index (0, h, r, d). -/
def blockAt (s : Fin 3) (x0 : Vec Ideal S1x256x1024 .f32) (x1 : Vec Ideal S3072x1024 .bf16) : S1x16x256x64.Idx → EReal :=
  fun y => entry s x0 x1 (y 1) (y 2) (y 3)

/-- One store: the rectangle of columns off = s·1024 + h·64 of the product, written at head h of the block, is the
    block function under that store's rectangle. -/
theorem piece_apply (s : Fin 3) (h : Fin 16) (x0 : Vec Ideal S1x256x1024 .f32) (x1 : Vec Ideal S3072x1024 .bf16)
    (off : ℕ) (hoff : off = s.val * 1024 + h.val * 64) (hs : S256x3072.Slices ![0, off] S256x64)
    (hc : S256x64.ShapeCasts S1x1x256x64) (offs : Fin 4 → ℕ)
    (inb : ∀ a, offs a + S1x1x256x64.size a ≤ S1x16x256x64.size a)
    (h0 : offs 0 = 0) (h1 : offs 1 = h.val) (h2 : offs 2 = 0) (h3 : offs 3 = 0) (x : S1x1x256x64.Idx) :
    shapeCast S1x1x256x64 (extractStridedSlice S256x64 ![0, off] (k0_pay4 (F := Ideal) x0 x1) hs) hc x
      = blockAt s x0 x1 ((Rect.unit (s := S1x16x256x64) offs S1x1x256x64.size inb).emb x) := by
  obtain ⟨z0, z1, r, d, rfl⟩ : ∃ (z0 z1 : Fin 1) (r : Fin 256) (d : Fin 64), x = ix4 z0 z1 r d :=
    ⟨x 0, x 1, x 2, x 3, eq_ix4 x⟩
  have e1 : (Rect.unit (s := S1x16x256x64) offs S1x1x256x64.size inb).emb (ix4 z0 z1 r d) 1 = h :=
    Fin.ext (by show offs 1 + 1 * z1.val = h.val; omega)
  have e2 : (Rect.unit (s := S1x16x256x64) offs S1x1x256x64.size inb).emb (ix4 z0 z1 r d) 2 = r :=
    Fin.ext (by show offs 2 + 1 * r.val = r.val; omega)
  have e3 : (Rect.unit (s := S1x16x256x64) offs S1x1x256x64.size inb).emb (ix4 z0 z1 r d) 3 = d :=
    Fin.ext (by show offs 3 + 1 * d.val = d.val; omega)
  refine (headPiece_apply off _ hs hc z0 z1 r d (Cert.Spec.headCol s h d) ?_).trans ?_
  · rw [Cert.Spec.headCol_val, hoff]
  · refine (prod_apply x0 x1 r _).trans ?_
    show entry s x0 x1 h r d = entry s x0 x1 _ _ _
    rw [e1, e2, e3]

/-! ## Each output block as one function -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The s = 0 output block after the body: its sixteen stores are the sixteen heads of one function. -/
theorem out0_2_apply (x0 : Vec Ideal S1x256x1024 .f32) (x1 : Vec Ideal S3072x1024 .bf16) (y : S1x16x256x64.Idx) :
    out0_2 (F := Ideal) x0 x1 y = blockAt 0 x0 x1 y := by
  unfold out0_2
  simp only [View.ld_unit_zero (S := S1x256x1024) zeros3, View.ld_unit_zero (S := S3072x1024) zeros2]
  refine View.canon_apply_of_pieces (Val := Elt Ideal) (e := .bf16) (blockAt 0 x0 x1) _ ?_ y
    (cover0_2 _ _ _ _ _ _ _ _ _ _ _ _ _ _ _ _ y)
  intro p hp x
  simp only [List.mem_cons, List.mem_nil_iff, or_false] at hp
  rcases hp with rfl | rfl | rfl | rfl | rfl | rfl | rfl | rfl | rfl | rfl | rfl | rfl | rfl | rfl | rfl | rfl
  · exact piece_apply 0 15 x0 x1 960 rfl slices_S256x3072_o0_960_S256x64 shapeCasts_S256x64_S1x1x256x64 _
      inb_S1x16x256x64_S1x1x256x64_0_15_0_0 rfl rfl rfl rfl x
  · exact piece_apply 0 14 x0 x1 896 rfl slices_S256x3072_o0_896_S256x64 shapeCasts_S256x64_S1x1x256x64 _
      inb_S1x16x256x64_S1x1x256x64_0_14_0_0 rfl rfl rfl rfl x
  · exact piece_apply 0 13 x0 x1 832 rfl slices_S256x3072_o0_832_S256x64 shapeCasts_S256x64_S1x1x256x64 _
      inb_S1x16x256x64_S1x1x256x64_0_13_0_0 rfl rfl rfl rfl x
  · exact piece_apply 0 12 x0 x1 768 rfl slices_S256x3072_o0_768_S256x64 shapeCasts_S256x64_S1x1x256x64 _
      inb_S1x16x256x64_S1x1x256x64_0_12_0_0 rfl rfl rfl rfl x
  · exact piece_apply 0 11 x0 x1 704 rfl slices_S256x3072_o0_704_S256x64 shapeCasts_S256x64_S1x1x256x64 _
      inb_S1x16x256x64_S1x1x256x64_0_11_0_0 rfl rfl rfl rfl x
  · exact piece_apply 0 10 x0 x1 640 rfl slices_S256x3072_o0_640_S256x64 shapeCasts_S256x64_S1x1x256x64 _
      inb_S1x16x256x64_S1x1x256x64_0_10_0_0 rfl rfl rfl rfl x
  · exact piece_apply 0 9 x0 x1 576 rfl slices_S256x3072_o0_576_S256x64 shapeCasts_S256x64_S1x1x256x64 _
      inb_S1x16x256x64_S1x1x256x64_0_9_0_0 rfl rfl rfl rfl x
  · exact piece_apply 0 8 x0 x1 512 rfl slices_S256x3072_o0_512_S256x64 shapeCasts_S256x64_S1x1x256x64 _
      inb_S1x16x256x64_S1x1x256x64_0_8_0_0 rfl rfl rfl rfl x
  · exact piece_apply 0 7 x0 x1 448 rfl slices_S256x3072_o0_448_S256x64 shapeCasts_S256x64_S1x1x256x64 _
      inb_S1x16x256x64_S1x1x256x64_0_7_0_0 rfl rfl rfl rfl x
  · exact piece_apply 0 6 x0 x1 384 rfl slices_S256x3072_o0_384_S256x64 shapeCasts_S256x64_S1x1x256x64 _
      inb_S1x16x256x64_S1x1x256x64_0_6_0_0 rfl rfl rfl rfl x
  · exact piece_apply 0 5 x0 x1 320 rfl slices_S256x3072_o0_320_S256x64 shapeCasts_S256x64_S1x1x256x64 _
      inb_S1x16x256x64_S1x1x256x64_0_5_0_0 rfl rfl rfl rfl x
  · exact piece_apply 0 4 x0 x1 256 rfl slices_S256x3072_o0_256_S256x64 shapeCasts_S256x64_S1x1x256x64 _
      inb_S1x16x256x64_S1x1x256x64_0_4_0_0 rfl rfl rfl rfl x
  · exact piece_apply 0 3 x0 x1 192 rfl slices_S256x3072_o0_192_S256x64 shapeCasts_S256x64_S1x1x256x64 _
      inb_S1x16x256x64_S1x1x256x64_0_3_0_0 rfl rfl rfl rfl x
  · exact piece_apply 0 2 x0 x1 128 rfl slices_S256x3072_o0_128_S256x64 shapeCasts_S256x64_S1x1x256x64 _
      inb_S1x16x256x64_S1x1x256x64_0_2_0_0 rfl rfl rfl rfl x
  · exact piece_apply 0 1 x0 x1 64 rfl slices_S256x3072_o0_64_S256x64 shapeCasts_S256x64_S1x1x256x64 _
      inb_S1x16x256x64_S1x1x256x64_0_1_0_0 rfl rfl rfl rfl x
  · exact piece_apply 0 0 x0 x1 0 rfl slices_S256x3072_o0_0_S256x64 shapeCasts_S256x64_S1x1x256x64 _
      inb_S1x16x256x64_S1x1x256x64_0_0_0_0 rfl rfl rfl rfl x

/-- The s = 1 output block after the body: its sixteen stores are the sixteen heads of one function. -/
theorem out0_3_apply (x0 : Vec Ideal S1x256x1024 .f32) (x1 : Vec Ideal S3072x1024 .bf16) (y : S1x16x256x64.Idx) :
    out0_3 (F := Ideal) x0 x1 y = blockAt 1 x0 x1 y := by
  unfold out0_3
  simp only [View.ld_unit_zero (S := S1x256x1024) zeros3, View.ld_unit_zero (S := S3072x1024) zeros2]
  refine View.canon_apply_of_pieces (Val := Elt Ideal) (e := .bf16) (blockAt 1 x0 x1) _ ?_ y
    (cover0_3 _ _ _ _ _ _ _ _ _ _ _ _ _ _ _ _ y)
  intro p hp x
  simp only [List.mem_cons, List.mem_nil_iff, or_false] at hp
  rcases hp with rfl | rfl | rfl | rfl | rfl | rfl | rfl | rfl | rfl | rfl | rfl | rfl | rfl | rfl | rfl | rfl
  · exact piece_apply 1 15 x0 x1 1984 rfl slices_S256x3072_o0_1984_S256x64 shapeCasts_S256x64_S1x1x256x64 _
      inb_S1x16x256x64_S1x1x256x64_0_15_0_0 rfl rfl rfl rfl x
  · exact piece_apply 1 14 x0 x1 1920 rfl slices_S256x3072_o0_1920_S256x64 shapeCasts_S256x64_S1x1x256x64 _
      inb_S1x16x256x64_S1x1x256x64_0_14_0_0 rfl rfl rfl rfl x
  · exact piece_apply 1 13 x0 x1 1856 rfl slices_S256x3072_o0_1856_S256x64 shapeCasts_S256x64_S1x1x256x64 _
      inb_S1x16x256x64_S1x1x256x64_0_13_0_0 rfl rfl rfl rfl x
  · exact piece_apply 1 12 x0 x1 1792 rfl slices_S256x3072_o0_1792_S256x64 shapeCasts_S256x64_S1x1x256x64 _
      inb_S1x16x256x64_S1x1x256x64_0_12_0_0 rfl rfl rfl rfl x
  · exact piece_apply 1 11 x0 x1 1728 rfl slices_S256x3072_o0_1728_S256x64 shapeCasts_S256x64_S1x1x256x64 _
      inb_S1x16x256x64_S1x1x256x64_0_11_0_0 rfl rfl rfl rfl x
  · exact piece_apply 1 10 x0 x1 1664 rfl slices_S256x3072_o0_1664_S256x64 shapeCasts_S256x64_S1x1x256x64 _
      inb_S1x16x256x64_S1x1x256x64_0_10_0_0 rfl rfl rfl rfl x
  · exact piece_apply 1 9 x0 x1 1600 rfl slices_S256x3072_o0_1600_S256x64 shapeCasts_S256x64_S1x1x256x64 _
      inb_S1x16x256x64_S1x1x256x64_0_9_0_0 rfl rfl rfl rfl x
  · exact piece_apply 1 8 x0 x1 1536 rfl slices_S256x3072_o0_1536_S256x64 shapeCasts_S256x64_S1x1x256x64 _
      inb_S1x16x256x64_S1x1x256x64_0_8_0_0 rfl rfl rfl rfl x
  · exact piece_apply 1 7 x0 x1 1472 rfl slices_S256x3072_o0_1472_S256x64 shapeCasts_S256x64_S1x1x256x64 _
      inb_S1x16x256x64_S1x1x256x64_0_7_0_0 rfl rfl rfl rfl x
  · exact piece_apply 1 6 x0 x1 1408 rfl slices_S256x3072_o0_1408_S256x64 shapeCasts_S256x64_S1x1x256x64 _
      inb_S1x16x256x64_S1x1x256x64_0_6_0_0 rfl rfl rfl rfl x
  · exact piece_apply 1 5 x0 x1 1344 rfl slices_S256x3072_o0_1344_S256x64 shapeCasts_S256x64_S1x1x256x64 _
      inb_S1x16x256x64_S1x1x256x64_0_5_0_0 rfl rfl rfl rfl x
  · exact piece_apply 1 4 x0 x1 1280 rfl slices_S256x3072_o0_1280_S256x64 shapeCasts_S256x64_S1x1x256x64 _
      inb_S1x16x256x64_S1x1x256x64_0_4_0_0 rfl rfl rfl rfl x
  · exact piece_apply 1 3 x0 x1 1216 rfl slices_S256x3072_o0_1216_S256x64 shapeCasts_S256x64_S1x1x256x64 _
      inb_S1x16x256x64_S1x1x256x64_0_3_0_0 rfl rfl rfl rfl x
  · exact piece_apply 1 2 x0 x1 1152 rfl slices_S256x3072_o0_1152_S256x64 shapeCasts_S256x64_S1x1x256x64 _
      inb_S1x16x256x64_S1x1x256x64_0_2_0_0 rfl rfl rfl rfl x
  · exact piece_apply 1 1 x0 x1 1088 rfl slices_S256x3072_o0_1088_S256x64 shapeCasts_S256x64_S1x1x256x64 _
      inb_S1x16x256x64_S1x1x256x64_0_1_0_0 rfl rfl rfl rfl x
  · exact piece_apply 1 0 x0 x1 1024 rfl slices_S256x3072_o0_1024_S256x64 shapeCasts_S256x64_S1x1x256x64 _
      inb_S1x16x256x64_S1x1x256x64_0_0_0_0 rfl rfl rfl rfl x

/-- The s = 2 output block after the body: its sixteen stores are the sixteen heads of one function. -/
theorem out0_4_apply (x0 : Vec Ideal S1x256x1024 .f32) (x1 : Vec Ideal S3072x1024 .bf16) (y : S1x16x256x64.Idx) :
    out0_4 (F := Ideal) x0 x1 y = blockAt 2 x0 x1 y := by
  unfold out0_4
  simp only [View.ld_unit_zero (S := S1x256x1024) zeros3, View.ld_unit_zero (S := S3072x1024) zeros2]
  refine View.canon_apply_of_pieces (Val := Elt Ideal) (e := .bf16) (blockAt 2 x0 x1) _ ?_ y
    (cover0_4 _ _ _ _ _ _ _ _ _ _ _ _ _ _ _ _ y)
  intro p hp x
  simp only [List.mem_cons, List.mem_nil_iff, or_false] at hp
  rcases hp with rfl | rfl | rfl | rfl | rfl | rfl | rfl | rfl | rfl | rfl | rfl | rfl | rfl | rfl | rfl | rfl
  · exact piece_apply 2 15 x0 x1 3008 rfl slices_S256x3072_o0_3008_S256x64 shapeCasts_S256x64_S1x1x256x64 _
      inb_S1x16x256x64_S1x1x256x64_0_15_0_0 rfl rfl rfl rfl x
  · exact piece_apply 2 14 x0 x1 2944 rfl slices_S256x3072_o0_2944_S256x64 shapeCasts_S256x64_S1x1x256x64 _
      inb_S1x16x256x64_S1x1x256x64_0_14_0_0 rfl rfl rfl rfl x
  · exact piece_apply 2 13 x0 x1 2880 rfl slices_S256x3072_o0_2880_S256x64 shapeCasts_S256x64_S1x1x256x64 _
      inb_S1x16x256x64_S1x1x256x64_0_13_0_0 rfl rfl rfl rfl x
  · exact piece_apply 2 12 x0 x1 2816 rfl slices_S256x3072_o0_2816_S256x64 shapeCasts_S256x64_S1x1x256x64 _
      inb_S1x16x256x64_S1x1x256x64_0_12_0_0 rfl rfl rfl rfl x
  · exact piece_apply 2 11 x0 x1 2752 rfl slices_S256x3072_o0_2752_S256x64 shapeCasts_S256x64_S1x1x256x64 _
      inb_S1x16x256x64_S1x1x256x64_0_11_0_0 rfl rfl rfl rfl x
  · exact piece_apply 2 10 x0 x1 2688 rfl slices_S256x3072_o0_2688_S256x64 shapeCasts_S256x64_S1x1x256x64 _
      inb_S1x16x256x64_S1x1x256x64_0_10_0_0 rfl rfl rfl rfl x
  · exact piece_apply 2 9 x0 x1 2624 rfl slices_S256x3072_o0_2624_S256x64 shapeCasts_S256x64_S1x1x256x64 _
      inb_S1x16x256x64_S1x1x256x64_0_9_0_0 rfl rfl rfl rfl x
  · exact piece_apply 2 8 x0 x1 2560 rfl slices_S256x3072_o0_2560_S256x64 shapeCasts_S256x64_S1x1x256x64 _
      inb_S1x16x256x64_S1x1x256x64_0_8_0_0 rfl rfl rfl rfl x
  · exact piece_apply 2 7 x0 x1 2496 rfl slices_S256x3072_o0_2496_S256x64 shapeCasts_S256x64_S1x1x256x64 _
      inb_S1x16x256x64_S1x1x256x64_0_7_0_0 rfl rfl rfl rfl x
  · exact piece_apply 2 6 x0 x1 2432 rfl slices_S256x3072_o0_2432_S256x64 shapeCasts_S256x64_S1x1x256x64 _
      inb_S1x16x256x64_S1x1x256x64_0_6_0_0 rfl rfl rfl rfl x
  · exact piece_apply 2 5 x0 x1 2368 rfl slices_S256x3072_o0_2368_S256x64 shapeCasts_S256x64_S1x1x256x64 _
      inb_S1x16x256x64_S1x1x256x64_0_5_0_0 rfl rfl rfl rfl x
  · exact piece_apply 2 4 x0 x1 2304 rfl slices_S256x3072_o0_2304_S256x64 shapeCasts_S256x64_S1x1x256x64 _
      inb_S1x16x256x64_S1x1x256x64_0_4_0_0 rfl rfl rfl rfl x
  · exact piece_apply 2 3 x0 x1 2240 rfl slices_S256x3072_o0_2240_S256x64 shapeCasts_S256x64_S1x1x256x64 _
      inb_S1x16x256x64_S1x1x256x64_0_3_0_0 rfl rfl rfl rfl x
  · exact piece_apply 2 2 x0 x1 2176 rfl slices_S256x3072_o0_2176_S256x64 shapeCasts_S256x64_S1x1x256x64 _
      inb_S1x16x256x64_S1x1x256x64_0_2_0_0 rfl rfl rfl rfl x
  · exact piece_apply 2 1 x0 x1 2112 rfl slices_S256x3072_o0_2112_S256x64 shapeCasts_S256x64_S1x1x256x64 _
      inb_S1x16x256x64_S1x1x256x64_0_1_0_0 rfl rfl rfl rfl x
  · exact piece_apply 2 0 x0 x1 2048 rfl slices_S256x3072_o0_2048_S256x64 shapeCasts_S256x64_S1x1x256x64 _
      inb_S1x16x256x64_S1x1x256x64_0_0_0_0 rfl rfl rfl rfl x

/-! ## A block read from the arrays is the section of heads under it -/

/-- When the block of x holds rows nb·256 … of batch element b and the weight's block is the weight, the block
    function at (0, h, r, d) is the section's entry (b, h, nb·256 + r, d): the same sum, term by term. -/
theorem blockAt_eq_heads (s : Fin 3) (X : Cert.Spec.SX.Idx → EReal) (W : Cert.Spec.SWqkv.Idx → EReal)
    (x0 : Vec Ideal S1x256x1024 .f32) (x1 : Vec Ideal S3072x1024 .bf16) (b nb : ℕ)
    (hx0 : ∀ (r : Fin 256) (m : Fin 1024) (i : Cert.Spec.SX.Idx), (i 0).val = b → (i 1).val = nb * 256 + r.val →
      (i 2).val = m.val → x0 (ix3 (0 : Fin 1) r m) = X i)
    (hx1 : ∀ (o : Fin 3072) (m : Fin 1024), x1 (ix2 o m) = W (ix2 o m))
    (y : S1x16x256x64.Idx) (i : Cert.Spec.SHeads.Idx)
    (hi0 : (i 0).val = b) (hi1 : (i 1).val = (y 1).val) (hi2 : (i 2).val = nb * 256 + (y 2).val)
    (hi3 : (i 3).val = (y 3).val) :
    blockAt s x0 x1 y = Cert.Spec.heads s X W i := by
  show entry s x0 x1 (y 1) (y 2) (y 3) = Cert.Spec.headsAt s X W (i 0) (i 1) (i 2) (i 3)
  unfold entry Cert.Spec.headsAt Cert.Spec.proj
  refine Finset.sum_congr rfl fun m _ => ?_
  refine congrArg₂ (· * ·) ?_ ?_
  · exact hx0 (y 2) m _ hi0 hi2 rfl
  · rw [hx1]
    refine congrArg W (congrArg (fun o => ix2 o m) (Fin.ext ?_))
    show s.val * 1024 + (y 1).val * 64 + (y 3).val = s.val * 1024 + (i 1).val * 64 + (i 3).val
    rw [hi1, hi3]

/-! ## From blocks to the arrays -/

variable (V : (c : Dev nD) → (b : Ref sig .tc) → Buf (Elt Ideal) ((c : Thread nD τ).loc b))

/-! ### Section 0 (output window 2) -/

/-- The index maps decided over the grid: the block of x moves with the output's block (batch element, group of
    rows), the weight's block stays, the output's head and lane block indices are zero. -/
theorem idx_facts_q : ∀ t : Fin cfg0.N,
    win0_0.index t (0 : Fin 3) = win0_2.index t (0 : Fin 4) ∧ win0_0.index t (1 : Fin 3) = win0_2.index t (2 : Fin 4)
    ∧ win0_0.index t (2 : Fin 3) = 0 ∧ win0_1.index t (0 : Fin 2) = 0 ∧ win0_1.index t (1 : Fin 2) = 0
    ∧ win0_2.index t (1 : Fin 4) = 0 ∧ win0_2.index t (3 : Fin 4) = 0
    ∧ win0_2.index t (0 : Fin 4) ≤ 1 ∧ win0_2.index t (2 : Fin 4) ≤ 7 :=
  (by decide +kernel : ∀ t : Fin grid0.N, _)

/-- Every (batch element, group of rows) is some point's block. -/
theorem idx_onto_q : ∀ (q0 : Fin 2) (q2 : Fin 8), ∃ t : Fin cfg0.N,
    win0_2.index t (0 : Fin 4) = q0.val ∧ win0_2.index t (2 : Fin 4) = q2.val :=
  (by decide +kernel : ∀ (q0 : Fin 2) (q2 : Fin 8), ∃ t : Fin grid0.N,
    win0_2.index t (0 : Fin 4) = q0.val ∧ win0_2.index t (2 : Fin 4) = q2.val)

/-- What point t writes back is block t of the section of heads of the arrays as the region finds them. -/
theorem flushed_q (c : Dev nD) (t : Fin cfg0.N) :
    (dat0 (F := Ideal) V c).flushed 2 t
      = ((cfg0.win 2).blk t).view.read (Elt Ideal) (Cert.Spec.heads 0 (V c main_arg0) (V c main_v0)) := by
  show (cfg0.win 2).cut (grid0.coords t) ((dat0 V c).after 2 t) = _
  rw [after0_2]
  obtain ⟨e0, e1, e2, e3, e4, e5, e6, e7, e8⟩ := idx_facts_q t
  funext y
  show out0_2 (iblk0 V c 0 t) (iblk0 V c 1 t) y
    = Cert.Spec.heads 0 (V c main_arg0) (V c main_v0) (((cfg0.win 2).blk t).view.emb y)
  refine (out0_2_apply _ _ y).trans ?_
  have hy0 : (y 0).val < 1 := (y 0).isLt
  have hy1 : (y 1).val < 16 := (y 1).isLt
  have hy3 : (y 3).val < 64 := (y 3).isLt
  refine blockAt_eq_heads 0 (V c main_arg0) (V c main_v0) _ _ (win0_2.index t (0 : Fin 4)) (win0_2.index t (2 : Fin 4))
    ?_ ?_ y _ ?_ ?_ ?_ ?_
  · intro r m i h0 h1 h2
    show V c main_arg0 (((cfg0.win 0).blk t).view.emb (ix3 (0 : Fin 1) r m)) = V c main_arg0 i
    refine congrArg (V c main_arg0) (funext fun a => Fin.ext ?_)
    match a with
    | ⟨0, _⟩ => show win0_0.index t (0 : Fin 3) * 1 + 1 * (0 : Fin 1).val = (i 0).val; rw [h0, e0]; simp
    | ⟨1, _⟩ => show win0_0.index t (1 : Fin 3) * 256 + 1 * r.val = (i 1).val; rw [h1, e1]; omega
    | ⟨2, _⟩ => show win0_0.index t (2 : Fin 3) * 1024 + 1 * m.val = (i 2).val; rw [h2, e2]; omega
  · intro o m
    show V c main_v0 (((cfg0.win 1).blk t).view.emb (ix2 o m)) = V c main_v0 (ix2 o m)
    refine congrArg (V c main_v0) (funext fun a => Fin.ext ?_)
    match a with
    | ⟨0, _⟩ => show win0_1.index t (0 : Fin 2) * 3072 + 1 * o.val = o.val; rw [e3]; omega
    | ⟨1, _⟩ => show win0_1.index t (1 : Fin 2) * 1024 + 1 * m.val = m.val; rw [e4]; omega
  · show win0_2.index t (0 : Fin 4) * 1 + 1 * (y 0).val = win0_2.index t (0 : Fin 4); omega
  · show win0_2.index t (1 : Fin 4) * 16 + 1 * (y 1).val = (y 1).val; rw [e5]; omega
  · show win0_2.index t (2 : Fin 4) * 256 + 1 * (y 2).val = win0_2.index t (2 : Fin 4) * 256 + (y 2).val; omega
  · show win0_2.index t (3 : Fin 4) * 64 + 1 * (y 3).val = (y 3).val; rw [e6]; omega

/-- An index of the array is in point t's block iff each coordinate is in the block's range on its axis. -/
theorem mem_blk_q (t : Fin cfg0.N) (i : S2x16x2048x64.Idx) :
    i ∈ ((cfg0.win 2).blk t).view.set ↔ ∀ a : Fin 4, win0_2.index t a * S1x16x256x64.size a ≤ (i a).val
      ∧ (i a).val < win0_2.index t a * S1x16x256x64.size a + S1x16x256x64.size a := by
  show i ∈ ((View.whole main_v2_0).slice (win0_2.rect t)).set ↔ _
  rw [View.set_slice_whole, Rect.mem_set_unit]
  exact Iff.rfl

/-- The blocks tile the array: index (b, h, n, d) is in the block of batch element b and rows' group n / 256. -/
theorem cover_q (i : S2x16x2048x64.Idx) :
    ∃ t : Fin cfg0.N, (cfg0.win 2).flush t = true ∧ i ∈ ((cfg0.win 2).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht0, ht2⟩ := idx_onto_q ⟨(i 0).val, hi0⟩ ⟨(i 2).val / 256, by omega⟩
  have q0 : win0_2.index t (0 : Fin 4) = (i 0).val := ht0
  have q2 : win0_2.index t (2 : Fin 4) = (i 2).val / 256 := ht2
  obtain ⟨e0, e1, e2, e3, e4, e5, e6, e7, e8⟩ := idx_facts_q t
  refine ⟨t, flush0_2 t, ?_⟩
  rw [mem_blk_q]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 256 ≤ (i 2).val ∧ (i 2).val < win0_2.index t (2 : Fin 4) * 256 + 256; omega
  | ⟨3, _⟩ => show win0_2.index t (3 : Fin 4) * 64 ≤ (i 3).val ∧ (i 3).val < win0_2.index t (3 : Fin 4) * 64 + 64; omega

/-- The array after the region: section 0 of the heads of the projection. -/
theorem final_q (c : Dev nD) :
    (dat0 (F := Ideal) V c).arrAt 2 cfg0.N = Cert.Spec.heads 0 (V c main_arg0) (V c main_v0) :=
  (dat0 V c).arrAt_eq_of_cover 2 (Cert.Spec.heads 0 (V c main_arg0) (V c main_v0)) (fun t _ => flushed_q V c t)
    (cover_q)

/-! ### Section 1 (output window 3) -/

/-- The index maps decided over the grid: the block of x moves with the output's block (batch element, group of
    rows), the weight's block stays, the output's head and lane block indices are zero. -/
theorem idx_facts_k : ∀ t : Fin cfg0.N,
    win0_0.index t (0 : Fin 3) = win0_3.index t (0 : Fin 4) ∧ win0_0.index t (1 : Fin 3) = win0_3.index t (2 : Fin 4)
    ∧ win0_0.index t (2 : Fin 3) = 0 ∧ win0_1.index t (0 : Fin 2) = 0 ∧ win0_1.index t (1 : Fin 2) = 0
    ∧ win0_3.index t (1 : Fin 4) = 0 ∧ win0_3.index t (3 : Fin 4) = 0
    ∧ win0_3.index t (0 : Fin 4) ≤ 1 ∧ win0_3.index t (2 : Fin 4) ≤ 7 :=
  (by decide +kernel : ∀ t : Fin grid0.N, _)

/-- Every (batch element, group of rows) is some point's block. -/
theorem idx_onto_k : ∀ (q0 : Fin 2) (q2 : Fin 8), ∃ t : Fin cfg0.N,
    win0_3.index t (0 : Fin 4) = q0.val ∧ win0_3.index t (2 : Fin 4) = q2.val :=
  (by decide +kernel : ∀ (q0 : Fin 2) (q2 : Fin 8), ∃ t : Fin grid0.N,
    win0_3.index t (0 : Fin 4) = q0.val ∧ win0_3.index t (2 : Fin 4) = q2.val)

/-- What point t writes back is block t of the section of heads of the arrays as the region finds them. -/
theorem flushed_k (c : Dev nD) (t : Fin cfg0.N) :
    (dat0 (F := Ideal) V c).flushed 3 t
      = ((cfg0.win 3).blk t).view.read (Elt Ideal) (Cert.Spec.heads 1 (V c main_arg0) (V c main_v0)) := by
  show (cfg0.win 3).cut (grid0.coords t) ((dat0 V c).after 3 t) = _
  rw [after0_3]
  obtain ⟨e0, e1, e2, e3, e4, e5, e6, e7, e8⟩ := idx_facts_k t
  funext y
  show out0_3 (iblk0 V c 0 t) (iblk0 V c 1 t) y
    = Cert.Spec.heads 1 (V c main_arg0) (V c main_v0) (((cfg0.win 3).blk t).view.emb y)
  refine (out0_3_apply _ _ y).trans ?_
  have hy0 : (y 0).val < 1 := (y 0).isLt
  have hy1 : (y 1).val < 16 := (y 1).isLt
  have hy3 : (y 3).val < 64 := (y 3).isLt
  refine blockAt_eq_heads 1 (V c main_arg0) (V c main_v0) _ _ (win0_3.index t (0 : Fin 4)) (win0_3.index t (2 : Fin 4))
    ?_ ?_ y _ ?_ ?_ ?_ ?_
  · intro r m i h0 h1 h2
    show V c main_arg0 (((cfg0.win 0).blk t).view.emb (ix3 (0 : Fin 1) r m)) = V c main_arg0 i
    refine congrArg (V c main_arg0) (funext fun a => Fin.ext ?_)
    match a with
    | ⟨0, _⟩ => show win0_0.index t (0 : Fin 3) * 1 + 1 * (0 : Fin 1).val = (i 0).val; rw [h0, e0]; simp
    | ⟨1, _⟩ => show win0_0.index t (1 : Fin 3) * 256 + 1 * r.val = (i 1).val; rw [h1, e1]; omega
    | ⟨2, _⟩ => show win0_0.index t (2 : Fin 3) * 1024 + 1 * m.val = (i 2).val; rw [h2, e2]; omega
  · intro o m
    show V c main_v0 (((cfg0.win 1).blk t).view.emb (ix2 o m)) = V c main_v0 (ix2 o m)
    refine congrArg (V c main_v0) (funext fun a => Fin.ext ?_)
    match a with
    | ⟨0, _⟩ => show win0_1.index t (0 : Fin 2) * 3072 + 1 * o.val = o.val; rw [e3]; omega
    | ⟨1, _⟩ => show win0_1.index t (1 : Fin 2) * 1024 + 1 * m.val = m.val; rw [e4]; omega
  · show win0_3.index t (0 : Fin 4) * 1 + 1 * (y 0).val = win0_3.index t (0 : Fin 4); omega
  · show win0_3.index t (1 : Fin 4) * 16 + 1 * (y 1).val = (y 1).val; rw [e5]; omega
  · show win0_3.index t (2 : Fin 4) * 256 + 1 * (y 2).val = win0_3.index t (2 : Fin 4) * 256 + (y 2).val; omega
  · show win0_3.index t (3 : Fin 4) * 64 + 1 * (y 3).val = (y 3).val; rw [e6]; omega

/-- An index of the array is in point t's block iff each coordinate is in the block's range on its axis. -/
theorem mem_blk_k (t : Fin cfg0.N) (i : S2x16x2048x64.Idx) :
    i ∈ ((cfg0.win 3).blk t).view.set ↔ ∀ a : Fin 4, win0_3.index t a * S1x16x256x64.size a ≤ (i a).val
      ∧ (i a).val < win0_3.index t a * S1x16x256x64.size a + S1x16x256x64.size a := by
  show i ∈ ((View.whole main_v2_1).slice (win0_3.rect t)).set ↔ _
  rw [View.set_slice_whole, Rect.mem_set_unit]
  exact Iff.rfl

/-- The blocks tile the array: index (b, h, n, d) is in the block of batch element b and rows' group n / 256. -/
theorem cover_k (i : S2x16x2048x64.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht0, ht2⟩ := idx_onto_k ⟨(i 0).val, hi0⟩ ⟨(i 2).val / 256, by omega⟩
  have q0 : win0_3.index t (0 : Fin 4) = (i 0).val := ht0
  have q2 : win0_3.index t (2 : Fin 4) = (i 2).val / 256 := ht2
  obtain ⟨e0, e1, e2, e3, e4, e5, e6, e7, e8⟩ := idx_facts_k t
  refine ⟨t, flush0_3 t, ?_⟩
  rw [mem_blk_k]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 256 ≤ (i 2).val ∧ (i 2).val < win0_3.index t (2 : Fin 4) * 256 + 256; omega
  | ⟨3, _⟩ => show win0_3.index t (3 : Fin 4) * 64 ≤ (i 3).val ∧ (i 3).val < win0_3.index t (3 : Fin 4) * 64 + 64; omega

/-- The array after the region: section 1 of the heads of the projection. -/
theorem final_k (c : Dev nD) :
    (dat0 (F := Ideal) V c).arrAt 3 cfg0.N = Cert.Spec.heads 1 (V c main_arg0) (V c main_v0) :=
  (dat0 V c).arrAt_eq_of_cover 3 (Cert.Spec.heads 1 (V c main_arg0) (V c main_v0)) (fun t _ => flushed_k V c t)
    (cover_k)

/-! ### Section 2 (output window 4) -/

/-- The index maps decided over the grid: the block of x moves with the output's block (batch element, group of
    rows), the weight's block stays, the output's head and lane block indices are zero. -/
theorem idx_facts_v : ∀ t : Fin cfg0.N,
    win0_0.index t (0 : Fin 3) = win0_4.index t (0 : Fin 4) ∧ win0_0.index t (1 : Fin 3) = win0_4.index t (2 : Fin 4)
    ∧ win0_0.index t (2 : Fin 3) = 0 ∧ win0_1.index t (0 : Fin 2) = 0 ∧ win0_1.index t (1 : Fin 2) = 0
    ∧ win0_4.index t (1 : Fin 4) = 0 ∧ win0_4.index t (3 : Fin 4) = 0
    ∧ win0_4.index t (0 : Fin 4) ≤ 1 ∧ win0_4.index t (2 : Fin 4) ≤ 7 :=
  (by decide +kernel : ∀ t : Fin grid0.N, _)

/-- Every (batch element, group of rows) is some point's block. -/
theorem idx_onto_v : ∀ (q0 : Fin 2) (q2 : Fin 8), ∃ t : Fin cfg0.N,
    win0_4.index t (0 : Fin 4) = q0.val ∧ win0_4.index t (2 : Fin 4) = q2.val :=
  (by decide +kernel : ∀ (q0 : Fin 2) (q2 : Fin 8), ∃ t : Fin grid0.N,
    win0_4.index t (0 : Fin 4) = q0.val ∧ win0_4.index t (2 : Fin 4) = q2.val)

/-- What point t writes back is block t of the section of heads of the arrays as the region finds them. -/
theorem flushed_v (c : Dev nD) (t : Fin cfg0.N) :
    (dat0 (F := Ideal) V c).flushed 4 t
      = ((cfg0.win 4).blk t).view.read (Elt Ideal) (Cert.Spec.heads 2 (V c main_arg0) (V c main_v0)) := by
  show (cfg0.win 4).cut (grid0.coords t) ((dat0 V c).after 4 t) = _
  rw [after0_4]
  obtain ⟨e0, e1, e2, e3, e4, e5, e6, e7, e8⟩ := idx_facts_v t
  funext y
  show out0_4 (iblk0 V c 0 t) (iblk0 V c 1 t) y
    = Cert.Spec.heads 2 (V c main_arg0) (V c main_v0) (((cfg0.win 4).blk t).view.emb y)
  refine (out0_4_apply _ _ y).trans ?_
  have hy0 : (y 0).val < 1 := (y 0).isLt
  have hy1 : (y 1).val < 16 := (y 1).isLt
  have hy3 : (y 3).val < 64 := (y 3).isLt
  refine blockAt_eq_heads 2 (V c main_arg0) (V c main_v0) _ _ (win0_4.index t (0 : Fin 4)) (win0_4.index t (2 : Fin 4))
    ?_ ?_ y _ ?_ ?_ ?_ ?_
  · intro r m i h0 h1 h2
    show V c main_arg0 (((cfg0.win 0).blk t).view.emb (ix3 (0 : Fin 1) r m)) = V c main_arg0 i
    refine congrArg (V c main_arg0) (funext fun a => Fin.ext ?_)
    match a with
    | ⟨0, _⟩ => show win0_0.index t (0 : Fin 3) * 1 + 1 * (0 : Fin 1).val = (i 0).val; rw [h0, e0]; simp
    | ⟨1, _⟩ => show win0_0.index t (1 : Fin 3) * 256 + 1 * r.val = (i 1).val; rw [h1, e1]; omega
    | ⟨2, _⟩ => show win0_0.index t (2 : Fin 3) * 1024 + 1 * m.val = (i 2).val; rw [h2, e2]; omega
  · intro o m
    show V c main_v0 (((cfg0.win 1).blk t).view.emb (ix2 o m)) = V c main_v0 (ix2 o m)
    refine congrArg (V c main_v0) (funext fun a => Fin.ext ?_)
    match a with
    | ⟨0, _⟩ => show win0_1.index t (0 : Fin 2) * 3072 + 1 * o.val = o.val; rw [e3]; omega
    | ⟨1, _⟩ => show win0_1.index t (1 : Fin 2) * 1024 + 1 * m.val = m.val; rw [e4]; omega
  · show win0_4.index t (0 : Fin 4) * 1 + 1 * (y 0).val = win0_4.index t (0 : Fin 4); omega
  · show win0_4.index t (1 : Fin 4) * 16 + 1 * (y 1).val = (y 1).val; rw [e5]; omega
  · show win0_4.index t (2 : Fin 4) * 256 + 1 * (y 2).val = win0_4.index t (2 : Fin 4) * 256 + (y 2).val; omega
  · show win0_4.index t (3 : Fin 4) * 64 + 1 * (y 3).val = (y 3).val; rw [e6]; omega

/-- An index of the array is in point t's block iff each coordinate is in the block's range on its axis. -/
theorem mem_blk_v (t : Fin cfg0.N) (i : S2x16x2048x64.Idx) :
    i ∈ ((cfg0.win 4).blk t).view.set ↔ ∀ a : Fin 4, win0_4.index t a * S1x16x256x64.size a ≤ (i a).val
      ∧ (i a).val < win0_4.index t a * S1x16x256x64.size a + S1x16x256x64.size a := by
  show i ∈ ((View.whole main_v2_2).slice (win0_4.rect t)).set ↔ _
  rw [View.set_slice_whole, Rect.mem_set_unit]
  exact Iff.rfl

/-- The blocks tile the array: index (b, h, n, d) is in the block of batch element b and rows' group n / 256. -/
theorem cover_v (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht0, ht2⟩ := idx_onto_v ⟨(i 0).val, hi0⟩ ⟨(i 2).val / 256, by omega⟩
  have q0 : win0_4.index t (0 : Fin 4) = (i 0).val := ht0
  have q2 : win0_4.index t (2 : Fin 4) = (i 2).val / 256 := ht2
  obtain ⟨e0, e1, e2, e3, e4, e5, e6, e7, e8⟩ := idx_facts_v t
  refine ⟨t, flush0_4 t, ?_⟩
  rw [mem_blk_v]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 256 ≤ (i 2).val ∧ (i 2).val < win0_4.index t (2 : Fin 4) * 256 + 256; omega
  | ⟨3, _⟩ => show win0_4.index t (3 : Fin 4) * 64 ≤ (i 3).val ∧ (i 3).val < win0_4.index t (3 : Fin 4) * 64 + 64; omega

/-- The array after the region: section 2 of the heads of the projection. -/
theorem final_v (c : Dev nD) :
    (dat0 (F := Ideal) V c).arrAt 4 cfg0.N = Cert.Spec.heads 2 (V c main_arg0) (V c main_v0) :=
  (dat0 V c).arrAt_eq_of_cover 4 (Cert.Spec.heads 2 (V c main_arg0) (V c main_v0)) (fun t _ => flushed_v V c t)
    (cover_v)

end Cert.KernelIdeal.ProjValue

end
-- ==== Proof.AttnValue.lean ====
/-
  The attention kernel leaves the context array of the specification.

  At one grid point (batch b, head h, query tile t) the body holds a tile of 512 query rows, all 2048 key rows
  and value rows of that batch and head, and the head's gain and offset.  Entry (r, d) of what it stores is
    Σ_j ( dots(r, j) / max(√(Σ_j' dots(r, j')²), ε) · g + β ) · v(j, d),   dots(r, j) = Σ_d' q(r, d') · k(j, d'),
  which is the specification's context entry at query row 512·t + r: the tile's rows are rows of the query array,
  the keys and values are whole, and a sum started from the zero word is the sum.  The tiles of the 128 points
  cover the array, each entry once.
-/
import proofs.«163006_j84232898609328_2_alg».proof.Proof.Gen.KernelIdeal.Frame
import proofs.«163006_j84232898609328_2_alg».proof.Proof.Spec
import proofs.«163006_j84232898609328_2_alg».proof.Proof.LibRowsByRows
import proofs.«163006_j84232898609328_2_alg».proof.Proof.LibVecRead
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.AttnValue

open Idealize.ShloMosaic Idealize.ShloMosaic.TcCoe Idealize.SL.Sem Idealize.ShloMosaic.ValueIdx
open Idealize.ShloMosaic.Pipeline (Dat)
open Cert.KernelIdeal Cert.KernelIdeal.Gen

/-! ## Small reads -/

/-- A [1, 1, a, b] block viewed [a, b] reads (r, d) at (0, 0, r, d). -/
theorem cast_drop2 {α : Type} {a b : ℕ} (v : (⟨4, ![1, 1, a, b]⟩ : Shape).Idx → α)
    (h : (⟨4, ![1, 1, a, b]⟩ : Shape).ShapeCasts ⟨2, ![a, b]⟩) (r : Fin a) (d : Fin b) :
    shapeCast ⟨2, ![a, b]⟩ v h (ix2 r d) = v (ix4 (0 : Fin 1) (0 : Fin 1) r d) :=
  shapeCast_apply v h _ _ (by
    rw [Shape.rowMajor_val_four, Shape.rowMajor_val_two]
    show ((0 * 1 + 0) * a + r.val) * b + d.val = r.val * b + d.val
    simp)

/-- An [a, b] array viewed as a [1, 1, a, b] block reads (z, z', r, d) at (r, d). -/
theorem cast_add2 {α : Type} {a b : ℕ} (v : (⟨2, ![a, b]⟩ : Shape).Idx → α)
    (h : (⟨2, ![a, b]⟩ : Shape).ShapeCasts ⟨4, ![1, 1, a, b]⟩) (z z' : Fin 1) (r : Fin a) (d : Fin b) :
    shapeCast ⟨4, ![1, 1, a, b]⟩ v h (ix4 z z' r d) = v (ix2 r d) :=
  shapeCast_apply v h _ _ (by
    have hz : z.val = 0 := by omega
    have hz' : z'.val = 0 := by omega
    rw [Shape.rowMajor_val_four, Shape.rowMajor_val_two]
    show r.val * b + d.val = ((z.val * 1 + z'.val) * a + r.val) * b + d.val
    rw [hz, hz']; simp)

/-! ## The two products' dimension records -/

local notation "Dqk" => dot_S512x64_S2048x64_S512x2048_1_1_0_0_n_n
local notation "Dav" => dot_S512x2048_S2048x64_S512x64_1_0_0_1_n_n

theorem qk_l0 (j : S512x2048.Idx) (q : (Dqk).contr.Idx) : ((Dqk).lhsIdx j q 0).val = (j 0).val := by
  unfold DotDims.lhsIdx
  rw [dif_neg (show ¬(0 : Fin S512x64.rank) ∈ (Dqk).lhsBatch by decide), dif_pos (show (0 : Fin S512x64.rank) ∈ (Dqk).lhsNonContracting by decide)]
  rfl
theorem qk_l1 (j : S512x2048.Idx) (q : (Dqk).contr.Idx) : ((Dqk).lhsIdx j q 1).val = (q ⟨0, by decide⟩).val :=
  (Dqk).lhsIdx_val_of_single rfl j q
theorem qk_r0 (j : S512x2048.Idx) (q : (Dqk).contr.Idx) : ((Dqk).rhsIdx j q 0).val = (j 1).val := by
  unfold DotDims.rhsIdx
  rw [dif_neg (show ¬(0 : Fin S2048x64.rank) ∈ (Dqk).rhsBatch by decide), dif_pos (show (0 : Fin S2048x64.rank) ∈ (Dqk).rhsNonContracting by decide)]
  rfl
theorem qk_r1 (j : S512x2048.Idx) (q : (Dqk).contr.Idx) : ((Dqk).rhsIdx j q 1).val = (q ⟨0, by decide⟩).val :=
  (Dqk).rhsIdx_val_of_single rfl j q

theorem av_l0 (j : S512x64.Idx) (q : (Dav).contr.Idx) : ((Dav).lhsIdx j q 0).val = (j 0).val := by
  unfold DotDims.lhsIdx
  rw [dif_neg (show ¬(0 : Fin S512x2048.rank) ∈ (Dav).lhsBatch by decide), dif_pos (show (0 : Fin S512x2048.rank) ∈ (Dav).lhsNonContracting by decide)]
  rfl
theorem av_l1 (j : S512x64.Idx) (q : (Dav).contr.Idx) : ((Dav).lhsIdx j q 1).val = (q ⟨0, by decide⟩).val :=
  (Dav).lhsIdx_val_of_single rfl j q
theorem av_r0 (j : S512x64.Idx) (q : (Dav).contr.Idx) : ((Dav).rhsIdx j q 0).val = (q ⟨0, by decide⟩).val :=
  (Dav).rhsIdx_val_of_single rfl j q
theorem av_r1 (j : S512x64.Idx) (q : (Dav).contr.Idx) : ((Dav).rhsIdx j q 1).val = (j 1).val := by
  unfold DotDims.rhsIdx
  rw [dif_neg (show ¬(1 : Fin S2048x64.rank) ∈ (Dav).rhsBatch by decide), dif_pos (show (1 : Fin S2048x64.rank) ∈ (Dav).rhsNonContracting by decide)]
  rfl

/-! ## The body's result at an entry -/

section Body

variable (x0 : Vec Ideal S1x1x512x64 .bf16) (x1 x2 : Vec Ideal S1x1x2048x64 .bf16) (x3 x4 : Vec Ideal S1x1x1x1 .f32)

/-- The tile's inner products: row r of the queries against row j of the keys. -/
def tileDots (r : Fin 512) (j : Fin 2048) : EReal :=
  ∑ d : Fin 64, x0 (ix4 (0 : Fin 1) (0 : Fin 1) r d) * x1 (ix4 (0 : Fin 1) (0 : Fin 1) j d)

/-- The tile's normalized, scaled and shifted weights. -/
def tileWeight (r : Fin 512) (j : Fin 2048) : EReal :=
  Ideal.div (tileDots x0 x1 r j)
      (max (Ideal.sqrt (∑ j' : Fin 2048, tileDots x0 x1 r j' * tileDots x0 x1 r j')) Cert.Spec.eps)
    * x3 (ix4 (0 : Fin 1) (0 : Fin 1) (0 : Fin 1) (0 : Fin 1))
    + x4 (ix4 (0 : Fin 1) (0 : Fin 1) (0 : Fin 1) (0 : Fin 1))

/-- The product of queries and keys at an entry. -/
theorem dots_apply (r : Fin 512) (j : Fin 2048) :
    FloatOps.matmul (Dqk) none (shapeCast S512x64 x0 shapeCasts_S1x1x512x64_S512x64 : FVec Ideal S512x64 .bf16)
        (shapeCast S2048x64 x1 shapeCasts_S1x1x2048x64_S2048x64 : FVec Ideal S2048x64 .bf16) (constant (F := Ideal) S512x2048 .f32 0x00000000#32) (ix2 r j)
      = tileDots x0 x1 r j := by
  refine (Cert.RowsByRows.matmul_rows_rows_apply (Dqk) none rfl rfl qk_l0 qk_l1 qk_r0 qk_r1 _ _ r j).trans ?_
  exact Finset.sum_congr rfl fun d _ => by rw [cast_drop2, cast_drop2]

/-- The products of queries and keys, as the body forms them. -/
def vDots : FVec Ideal S512x2048 .f32 :=
  FloatOps.matmul (Dqk) none (shapeCast S512x64 x0 shapeCasts_S1x1x512x64_S512x64 : FVec Ideal S512x64 .bf16)
    (shapeCast S2048x64 x1 shapeCasts_S1x1x2048x64_S2048x64 : FVec Ideal S2048x64 .bf16) (constant (F := Ideal) S512x2048 .f32 0x00000000#32)

theorem vDots_apply (r : Fin 512) (j : Fin 2048) : vDots x0 x1 (ix2 r j) = tileDots x0 x1 r j := dots_apply x0 x1 r j

/-- The floored norms, one per query row, kept as a column. -/
def vDen : FVec Ideal S512x1 .f32 :=
  maximumf (sqrt (shapeCast S512x1 (multiReduction (F := Ideal) .add [1] S512 (mulf (vDots x0 x1) (vDots x0 x1)) 0x00000000#32
      reduces_S512x2048_S512 (.inl rfl) rfl) shapeCasts_S512_S512x1))
    (broadcast S512x1 (Scalar.ofBits (F := Ideal) .f32 0x2B8CBCCC#32))

theorem vDen_apply (r : Fin 512) (z : Fin 1) :
    vDen x0 x1 (ix2 r z)
      = max (Ideal.sqrt (∑ j' : Fin 2048, tileDots x0 x1 r j' * tileDots x0 x1 r j')) Cert.Spec.eps := by
  show max (Ideal.sqrt (shapeCast S512x1 (multiReduction (F := Ideal) .add [1] S512 (mulf (vDots x0 x1) (vDots x0 x1)) 0x00000000#32
      reduces_S512x2048_S512 (.inl rfl) rfl) shapeCasts_S512_S512x1 (ix2 r z))) Cert.Spec.eps = _
  refine congrArg (fun s => max (Ideal.sqrt s) Cert.Spec.eps) ?_
  refine (Cert.VecRead.shapeCast_col_apply _ _ r z).trans ((Cert.VecRead.laneSum_apply _ _ _ _ r).trans ?_)
  refine Finset.sum_congr rfl fun j' _ => ?_
  show vDots x0 x1 (ix2 r j') * vDots x0 x1 (ix2 r j') = _
  rw [vDots_apply]

/-- The weights, as the body forms them. -/
def vW : FVec Ideal S512x2048 .f32 :=
  addf (mulf (divf (vDots x0 x1) (broadcastTo S512x2048 (vDen x0 x1) broadcasts_S512x1_S512x2048))
      (broadcast S512x2048 (extractAt ![0, 0, 0, 0] x3 inpos_S1x1x1x1_p0_0_0_0)))
    (broadcast S512x2048 (extractAt ![0, 0, 0, 0] x4 inpos_S1x1x1x1_p0_0_0_0))

theorem extract_one (x : Vec Ideal S1x1x1x1 .f32) :
    extractAt ![0, 0, 0, 0] x inpos_S1x1x1x1_p0_0_0_0 = x (ix4 (0 : Fin 1) (0 : Fin 1) (0 : Fin 1) (0 : Fin 1)) := by
  unfold extractAt
  refine congrArg x (funext fun a => Fin.ext ?_)
  match a with
  | ⟨0, _⟩ => rfl
  | ⟨1, _⟩ => rfl
  | ⟨2, _⟩ => rfl
  | ⟨3, _⟩ => rfl

theorem vW_apply (r : Fin 512) (j : Fin 2048) : vW x0 x1 x3 x4 (ix2 r j) = tileWeight x0 x1 x3 x4 r j := by
  show Ideal.div (vDots x0 x1 (ix2 r j)) (broadcastTo S512x2048 (vDen x0 x1) broadcasts_S512x1_S512x2048 (ix2 r j))
      * extractAt ![0, 0, 0, 0] x3 inpos_S1x1x1x1_p0_0_0_0 + extractAt ![0, 0, 0, 0] x4 inpos_S1x1x1x1_p0_0_0_0 = _
  rw [Cert.VecRead.broadcastTo_col_apply, vDen_apply, vDots_apply, extract_one, extract_one]
  rfl

/-- The body's stored value is the weights times the values, viewed as a block. -/
theorem pay_unfold :
    k1_pay1 x0 x1 x2 x3 x4
      = shapeCast S1x1x512x64 (truncf .bf16 (FloatOps.matmul (Dav) none (truncf .bf16 (vW x0 x1 x3 x4) bitsLt_bf16_f32 : FVec Ideal S512x2048 .bf16)
          (shapeCast S2048x64 x2 shapeCasts_S1x1x2048x64_S2048x64 : FVec Ideal S2048x64 .bf16) (constant (F := Ideal) S512x64 .f32 0x00000000#32) : FVec Ideal S512x64 .f32)
          bitsLt_bf16_f32 : FVec Ideal S512x64 .bf16) shapeCasts_S512x64_S1x1x512x64 := rfl

/-- Entry (r, d) of what the body stores: Σ_j weight(r, j) · v(j, d). -/
theorem pay_apply (z z' : Fin 1) (r : Fin 512) (d : Fin 64) :
    k1_pay1 x0 x1 x2 x3 x4 (ix4 z z' r d)
      = ∑ j : Fin 2048, tileWeight x0 x1 x3 x4 r j * x2 (ix4 (0 : Fin 1) (0 : Fin 1) j d) := by
  rw [pay_unfold, cast_add2]
  show FloatOps.matmul (Dav) none (truncf .bf16 (vW x0 x1 x3 x4) bitsLt_bf16_f32 : FVec Ideal S512x2048 .bf16)
      (shapeCast S2048x64 x2 shapeCasts_S1x1x2048x64_S2048x64 : FVec Ideal S2048x64 .bf16) (constant (F := Ideal) S512x64 .f32 0x00000000#32) (ix2 r d) = _
  refine (Cert.AttnRead.matmul_zero_single_apply (K := 2048) (Dav) none rfl rfl _ _ (ix2 r d) (fun j => ix2 r j) (fun j => ix2 j d)
    (fun j => ?_) (fun j => ?_)).trans ?_
  · have hk := contrEquiv1_symm_val (Dav) 2048 rfl rfl j
    funext ax
    apply Fin.ext
    match ax with
    | ⟨0, _⟩ => exact av_l0 _ _
    | ⟨1, _⟩ => exact (av_l1 _ _).trans hk
  · have hk := contrEquiv1_symm_val (Dav) 2048 rfl rfl j
    funext ax
    apply Fin.ext
    match ax with
    | ⟨0, _⟩ => exact (av_r0 _ _).trans hk
    | ⟨1, _⟩ => exact av_r1 _ _
  · refine Finset.sum_congr rfl fun j _ => ?_
    show vW x0 x1 x3 x4 (ix2 r j) * shapeCast S2048x64 x2 shapeCasts_S1x1x2048x64_S2048x64 (ix2 j d) = _
    rw [vW_apply, cast_drop2]

/-- The tile's weights are the specification's, once the tile's inner products are its dots and the gain and
    offset are the head's: a sum started from the zero word is the sum. -/
theorem weight_eq (q k : Cert.Spec.SHeads.Idx → EReal) (g β : Cert.Spec.SGain.Idx → EReal)
    (B : Fin 2) (H : Fin 16) (I : Fin 2048) (r : Fin 512)
    (hd : ∀ j, tileDots x0 x1 r j = Cert.Spec.dots q k B H I j)
    (hg : x3 (ix4 (0 : Fin 1) (0 : Fin 1) (0 : Fin 1) (0 : Fin 1)) = g (ix4 (0 : Fin 1) H (0 : Fin 1) (0 : Fin 1)))
    (hβ : x4 (ix4 (0 : Fin 1) (0 : Fin 1) (0 : Fin 1) (0 : Fin 1)) = β (ix4 (0 : Fin 1) H (0 : Fin 1) (0 : Fin 1)))
    (j : Fin 2048) : tileWeight x0 x1 x3 x4 r j = Cert.Spec.weight q k g β B H I j := by
  unfold tileWeight Cert.Spec.weight Cert.Spec.den
  rw [hg, hβ]
  simp only [hd]
  rw [show Cert.Spec.zero = 0 from Ideal.ofBits_zero_f32, zero_add]

end Body

/-! ## From tiles to the array -/

section Array

variable (V : (c : Dev nD) → (b : Ref sig .tc) → Buf (Elt Ideal) ((c : Thread nD τ).loc b))

theorem hz4 : (![0, 0, 0, 0] : Fin 4 → Nat) = fun _ => 0 := funext fun a => by fin_cases a <;> rfl

/-- The index maps over the grid: the output tile's block index is (b, h, t, 0) with b < 2, h < 16, t < 4; the
    query tile moves with it, the keys and values follow its batch and head and stay whole along the rows, the
    gain and the offset follow its head. -/
theorem idx_facts : ∀ t : Fin cfg1.N,
    win1_5.index t (0 : Fin 4) < 2 ∧ win1_5.index t (1 : Fin 4) < 16 ∧ win1_5.index t (2 : Fin 4) < 4 ∧ win1_5.index t (3 : Fin 4) = 0
    ∧ win1_0.index t (0 : Fin 4) = win1_5.index t (0 : Fin 4) ∧ win1_0.index t (1 : Fin 4) = win1_5.index t (1 : Fin 4)
    ∧ win1_0.index t (2 : Fin 4) = win1_5.index t (2 : Fin 4) ∧ win1_0.index t (3 : Fin 4) = 0
    ∧ win1_1.index t (0 : Fin 4) = win1_5.index t (0 : Fin 4) ∧ win1_1.index t (1 : Fin 4) = win1_5.index t (1 : Fin 4)
    ∧ win1_1.index t (2 : Fin 4) = 0 ∧ win1_1.index t (3 : Fin 4) = 0
    ∧ win1_2.index t (0 : Fin 4) = win1_5.index t (0 : Fin 4) ∧ win1_2.index t (1 : Fin 4) = win1_5.index t (1 : Fin 4)
    ∧ win1_2.index t (2 : Fin 4) = 0 ∧ win1_2.index t (3 : Fin 4) = 0
    ∧ win1_3.index t (0 : Fin 4) = 0 ∧ win1_3.index t (1 : Fin 4) = win1_5.index t (1 : Fin 4)
    ∧ win1_3.index t (2 : Fin 4) = 0 ∧ win1_3.index t (3 : Fin 4) = 0
    ∧ win1_4.index t (0 : Fin 4) = 0 ∧ win1_4.index t (1 : Fin 4) = win1_5.index t (1 : Fin 4)
    ∧ win1_4.index t (2 : Fin 4) = 0 ∧ win1_4.index t (3 : Fin 4) = 0 :=
  (by decide +kernel : ∀ t : Fin grid1.N, _)

/-- Every (batch, head, tile) is some point's. -/
theorem idx_onto : ∀ (q0 : Fin 2) (q1 : Fin 16) (q2 : Fin 4), ∃ t : Fin cfg1.N, win1_5.index t = ![q0.val, q1.val, q2.val, 0] :=
  (by decide +kernel : ∀ (q0 : Fin 2) (q1 : Fin 16) (q2 : Fin 4), ∃ t : Fin grid1.N, win1_5.index t = ![q0.val, q1.val, q2.val, 0])

/-- What point t writes back is its tile of the specification's context array. -/
theorem flushed_eq (c : Dev nD) (t : Fin cfg1.N) :
    (dat1 (F := Ideal) V c).flushed 5 t = ((cfg1.win 5).blk t).view.read (Elt Ideal)
      (Cert.Spec.ctx (V c main_v2_0) (V c main_v2_1) (V c main_v2_2) (V c main_arg4) (V c main_arg5)) := by
  show (cfg1.win 5).cut (grid1.coords t) ((dat1 (F := Ideal) V c).after 5 t) = _
  rw [after1_5]
  unfold out1_5
  rw [View.canon_unit_zero hz4]
  simp only [View.ld_unit_zero (S := S1x1x512x64) hz4, View.ld_unit_zero (S := S1x1x2048x64) hz4, View.ld_unit_zero (S := S1x1x1x1) hz4]
  obtain ⟨b0, b1, b2, b3, q0, q1, q2, q3, k0, k1, k2, k3, v0, v1, v2, v3, g0, g1, g2, g3, o0, o1, o2, o3⟩ := idx_facts t
  funext y
  obtain ⟨z, z', r, d, rfl⟩ : ∃ (z z' : Fin 1) (r : Fin 512) (d : Fin 64), y = ix4 z z' r d := ⟨y 0, y 1, y 2, y 3, eq_ix4 y⟩
  have hz : z.val = 0 := by omega
  have hz' : z'.val = 0 := by omega
  have hr := r.isLt
  have hd := d.isLt
  show k1_pay1 (iblk1 V c 0 t) (iblk1 V c 1 t) (iblk1 V c 2 t) (iblk1 V c 3 t) (iblk1 V c 4 t) (ix4 z z' r d)
      = Cert.Spec.ctx (V c main_v2_0) (V c main_v2_1) (V c main_v2_2) (V c main_arg4) (V c main_arg5)
          (((cfg1.win 5).blk t).view.emb (ix4 z z' r d))
  -- the entry's coordinates in the array: batch, head, query row, lane
  let B : Fin 2 := ⟨win1_5.index t (0 : Fin 4) * 1 + 1 * z.val, by omega⟩
  let H : Fin 16 := ⟨win1_5.index t (1 : Fin 4) * 1 + 1 * z'.val, by omega⟩
  let I : Fin 2048 := ⟨win1_5.index t (2 : Fin 4) * 512 + 1 * r.val, by omega⟩
  have hemb : ((cfg1.win 5).blk t).view.emb (ix4 z z' r d) = ix4 B H I d := by
    funext a; apply Fin.ext
    match a with
    | ⟨0, _⟩ => rfl
    | ⟨1, _⟩ => rfl
    | ⟨2, _⟩ => rfl
    | ⟨3, _⟩ => show win1_5.index t (3 : Fin 4) * 64 + 1 * d.val = d.val; omega
  rw [hemb, Cert.Spec.ctx_apply]
  -- the query tile's rows are rows of the query array
  have hq : ∀ d' : Fin 64, iblk1 V c 0 t (ix4 (0 : Fin 1) (0 : Fin 1) r d')
      = (V c main_v2_0 : S2x16x2048x64.Idx → EReal) (ix4 B H I d') := fun d' => by
    show (V c main_v2_0 : S2x16x2048x64.Idx → EReal) (((cfg1.win 0).blk t).view.emb (ix4 (0 : Fin 1) (0 : Fin 1) r d')) = _
    refine congrArg _ (funext fun a => Fin.ext ?_)
    match a with
    | ⟨0, _⟩ => show win1_0.index t (0 : Fin 4) * 1 + 1 * 0 = win1_5.index t (0 : Fin 4) * 1 + 1 * z.val; omega
    | ⟨1, _⟩ => show win1_0.index t (1 : Fin 4) * 1 + 1 * 0 = win1_5.index t (1 : Fin 4) * 1 + 1 * z'.val; omega
    | ⟨2, _⟩ => show win1_0.index t (2 : Fin 4) * 512 + 1 * r.val = win1_5.index t (2 : Fin 4) * 512 + 1 * r.val; omega
    | ⟨3, _⟩ => show win1_0.index t (3 : Fin 4) * 64 + 1 * d'.val = d'.val; omega
  -- the keys and the values are the whole rows of that batch and head
  have hk : ∀ (j : Fin 2048) (d' : Fin 64), iblk1 V c 1 t (ix4 (0 : Fin 1) (0 : Fin 1) j d')
      = (V c main_v2_1 : S2x16x2048x64.Idx → EReal) (ix4 B H j d') := fun j d' => by
    show (V c main_v2_1 : S2x16x2048x64.Idx → EReal) (((cfg1.win 1).blk t).view.emb (ix4 (0 : Fin 1) (0 : Fin 1) j d')) = _
    refine congrArg _ (funext fun a => Fin.ext ?_)
    match a with
    | ⟨0, _⟩ => show win1_1.index t (0 : Fin 4) * 1 + 1 * 0 = win1_5.index t (0 : Fin 4) * 1 + 1 * z.val; omega
    | ⟨1, _⟩ => show win1_1.index t (1 : Fin 4) * 1 + 1 * 0 = win1_5.index t (1 : Fin 4) * 1 + 1 * z'.val; omega
    | ⟨2, _⟩ => show win1_1.index t (2 : Fin 4) * 2048 + 1 * j.val = j.val; omega
    | ⟨3, _⟩ => show win1_1.index t (3 : Fin 4) * 64 + 1 * d'.val = d'.val; omega
  have hv : ∀ (j : Fin 2048) (d' : Fin 64), iblk1 V c 2 t (ix4 (0 : Fin 1) (0 : Fin 1) j d')
      = (V c main_v2_2 : S2x16x2048x64.Idx → EReal) (ix4 B H j d') := fun j d' => by
    show (V c main_v2_2 : S2x16x2048x64.Idx → EReal) (((cfg1.win 2).blk t).view.emb (ix4 (0 : Fin 1) (0 : Fin 1) j d')) = _
    refine congrArg _ (funext fun a => Fin.ext ?_)
    match a with
    | ⟨0, _⟩ => show win1_2.index t (0 : Fin 4) * 1 + 1 * 0 = win1_5.index t (0 : Fin 4) * 1 + 1 * z.val; omega
    | ⟨1, _⟩ => show win1_2.index t (1 : Fin 4) * 1 + 1 * 0 = win1_5.index t (1 : Fin 4) * 1 + 1 * z'.val; omega
    | ⟨2, _⟩ => show win1_2.index t (2 : Fin 4) * 2048 + 1 * j.val = j.val; omega
    | ⟨3, _⟩ => show win1_2.index t (3 : Fin 4) * 64 + 1 * d'.val = d'.val; omega
  -- the gain and the offset are the head's
  have hg : iblk1 V c 3 t (ix4 (0 : Fin 1) (0 : Fin 1) (0 : Fin 1) (0 : Fin 1))
      = (V c main_arg4 : S1x16x1x1.Idx → EReal) (ix4 (0 : Fin 1) H (0 : Fin 1) (0 : Fin 1)) := by
    show (V c main_arg4 : S1x16x1x1.Idx → EReal) (((cfg1.win 3).blk t).view.emb (ix4 (0 : Fin 1) (0 : Fin 1) (0 : Fin 1) (0 : Fin 1))) = _
    refine congrArg _ (funext fun a => Fin.ext ?_)
    match a with
    | ⟨0, _⟩ => show win1_3.index t (0 : Fin 4) * 1 + 1 * 0 = 0; omega
    | ⟨1, _⟩ => show win1_3.index t (1 : Fin 4) * 1 + 1 * 0 = win1_5.index t (1 : Fin 4) * 1 + 1 * z'.val; omega
    | ⟨2, _⟩ => show win1_3.index t (2 : Fin 4) * 1 + 1 * 0 = 0; omega
    | ⟨3, _⟩ => show win1_3.index t (3 : Fin 4) * 1 + 1 * 0 = 0; omega
  have hβ : iblk1 V c 4 t (ix4 (0 : Fin 1) (0 : Fin 1) (0 : Fin 1) (0 : Fin 1))
      = (V c main_arg5 : S1x16x1x1.Idx → EReal) (ix4 (0 : Fin 1) H (0 : Fin 1) (0 : Fin 1)) := by
    show (V c main_arg5 : S1x16x1x1.Idx → EReal) (((cfg1.win 4).blk t).view.emb (ix4 (0 : Fin 1) (0 : Fin 1) (0 : Fin 1) (0 : Fin 1))) = _
    refine congrArg _ (funext fun a => Fin.ext ?_)
    match a with
    | ⟨0, _⟩ => show win1_4.index t (0 : Fin 4) * 1 + 1 * 0 = 0; omega
    | ⟨1, _⟩ => show win1_4.index t (1 : Fin 4) * 1 + 1 * 0 = win1_5.index t (1 : Fin 4) * 1 + 1 * z'.val; omega
    | ⟨2, _⟩ => show win1_4.index t (2 : Fin 4) * 1 + 1 * 0 = 0; omega
    | ⟨3, _⟩ => show win1_4.index t (3 : Fin 4) * 1 + 1 * 0 = 0; omega
  have hdots : ∀ j : Fin 2048, tileDots (iblk1 V c 0 t) (iblk1 V c 1 t) r j
      = Cert.Spec.dots (V c main_v2_0) (V c main_v2_1) B H I j := fun j => by
    unfold tileDots Cert.Spec.dots
    exact Finset.sum_congr rfl fun d' _ => by rw [hq d', hk j d']
  refine (pay_apply (iblk1 V c 0 t) (iblk1 V c 1 t) (iblk1 V c 2 t) (iblk1 V c 3 t) (iblk1 V c 4 t) z z' r d).trans ?_
  unfold Cert.Spec.ctxAt
  refine Finset.sum_congr rfl fun j _ => ?_
  rw [hv j d, weight_eq (iblk1 V c 0 t) (iblk1 V c 1 t) (iblk1 V c 3 t) (iblk1 V c 4 t) (V c main_v2_0) (V c main_v2_1)
    (V c main_arg4) (V c main_arg5) B H I r hdots hg hβ j]

/-- An index of the array is in point t's tile iff each coordinate is in the tile's range on its axis. -/
theorem mem_blk (t : Fin cfg1.N) (i : S2x16x2048x64.Idx) :
    i ∈ ((cfg1.win 5).blk t).view.set ↔ ∀ a : Fin 4, win1_5.index t a * S1x1x512x64.size a ≤ (i a).val
      ∧ (i a).val < win1_5.index t a * S1x1x512x64.size a + S1x1x512x64.size a := by
  show i ∈ ((View.whole main_v3).slice (win1_5.rect t)).set ↔ _
  rw [View.set_slice_whole, Rect.mem_set_unit]
  exact Iff.rfl

/-- Every entry (b, h, n, d) is in the tile of the point (b, h, n / 512). -/
theorem cover (i : S2x16x2048x64.Idx) :
    ∃ t : Fin cfg1.N, (cfg1.win 5).flush t = true ∧ i ∈ ((cfg1.win 5).blk t).view.set := by
  have h0 : (i 0).val < 2 := (i 0).isLt
  have h1 : (i 1).val < 16 := (i 1).isLt
  have h2 : (i 2).val < 2048 := (i 2).isLt
  have h3 : (i 3).val < 64 := (i 3).isLt
  obtain ⟨t, ht⟩ := idx_onto ⟨(i 0).val, h0⟩ ⟨(i 1).val, h1⟩ ⟨(i 2).val / 512, by omega⟩
  have q0 : win1_5.index t (0 : Fin 4) = (i 0).val := congrFun ht 0
  have q1 : win1_5.index t (1 : Fin 4) = (i 1).val := congrFun ht 1
  have q2 : win1_5.index t (2 : Fin 4) = (i 2).val / 512 := congrFun ht 2
  have q3 : win1_5.index t (3 : Fin 4) = 0 := congrFun ht 3
  refine ⟨t, flush1_5 t, ?_⟩
  rw [mem_blk]
  intro a
  match a with
  | ⟨0, _⟩ => show win1_5.index t (0 : Fin 4) * 1 ≤ (i 0).val ∧ (i 0).val < win1_5.index t (0 : Fin 4) * 1 + 1; omega
  | ⟨1, _⟩ => show win1_5.index t (1 : Fin 4) * 1 ≤ (i 1).val ∧ (i 1).val < win1_5.index t (1 : Fin 4) * 1 + 1; omega
  | ⟨2, _⟩ => show win1_5.index t (2 : Fin 4) * 512 ≤ (i 2).val ∧ (i 2).val < win1_5.index t (2 : Fin 4) * 512 + 512; omega
  | ⟨3, _⟩ => show win1_5.index t (3 : Fin 4) * 64 ≤ (i 3).val ∧ (i 3).val < win1_5.index t (3 : Fin 4) * 64 + 64; omega

/-- The attention kernel's output array, after the run of its 128 points, is the specification's context of the
    three arrays and the two per-head vectors it was entered with. -/
theorem final_ctx (c : Dev nD) : (dat1 (F := Ideal) V c).arrAt 5 cfg1.N
    = Cert.Spec.ctx (V c main_v2_0) (V c main_v2_1) (V c main_v2_2) (V c main_arg4) (V c main_arg5) :=
  (dat1 (F := Ideal) V c).arrAt_eq_of_cover 5 _ (fun t _ => flushed_eq V c t) cover

end Array

end Cert.KernelIdeal.AttnValue

end
-- ==== Proof.OutConcat.lean ====
/-
  The sixteen heads of a staged context block, laid side by side, read at an entry.

  The block is [1, 16, 256, 64]: one batch, sixteen heads, 256 rows, 64 lanes.  Head h of it — the rows and lanes at
  offset (0, h, 0, 0) — is viewed as a 256 × 64 array, and the sixteen views are concatenated along the columns into
  256 × 1024.  Column m of the result lies in piece m / 64 at lane m % 64 (all pieces are 64 wide), so the entry (r, m)
  is the block's entry (0, m / 64, r, m % 64).
-/
import proofs.«163006_j84232898609328_2_alg».proof.Proof.Gen.KernelIdeal.Frame
import proofs.«163006_j84232898609328_2_alg».proof.Proof.Spec
import Idealize.ShloMosaic.Lib.Pipeline.Value
import Idealize.ShloMosaic.Lib.ValueIdx

noncomputable section

namespace Cert.KernelIdeal.OutConcat

open Idealize.ShloMosaic Idealize.ShloMosaic.TcCoe Idealize.SL.Sem Idealize.ShloMosaic.ValueIdx Cert.KernelIdeal Cert.KernelIdeal.Gen

/-- The rectangle of head h — one batch, one head, all rows, all lanes, at offset (0, h, 0, 0) — lies inside the block. -/
theorem head_inb (h : Fin 16) :
    ∀ a, (![0, h.val, 0, 0] : Fin 4 → ℕ) a + S1x1x256x64.size a ≤ S1x16x256x64.size a := fun a => by
  have hh := h.isLt
  match a with
  | ⟨0, _⟩ => show 0 + 1 ≤ 1; omega
  | ⟨1, _⟩ => show h.val + 1 ≤ 16; omega
  | ⟨2, _⟩ => show 0 + 256 ≤ 256; omega
  | ⟨3, _⟩ => show 0 + 64 ≤ 64; omega

/-- Head h of the block, loaded through its rectangle and viewed as a 256 × 64 array. -/
abbrev headPiece (x0 : Vec Ideal S1x16x256x64 .bf16) (hc : S1x1x256x64.ShapeCasts S256x64) (h : Fin 16) :
    S256x64.Idx → Ideal .bf16 :=
  shapeCast S256x64 (View.ld x0 (Rect.unit (s := S1x16x256x64) ![0, h.val, 0, 0] S1x1x256x64.size (head_inb h))) hc

/-- That view at (r, d) is the block at (0, h, r, d): the view keeps the row-major position, (0, 0, r, d) ↦ r·64 + d,
    and the rectangle adds its offset to each coordinate. -/
theorem headPiece_apply (x0 : Vec Ideal S1x16x256x64 .bf16) (hc : S1x1x256x64.ShapeCasts S256x64) (h : Fin 16)
    (r : Fin 256) (d : Fin 64) :
    headPiece x0 hc h (ix2 r d) = x0 (ix4 (0 : Fin 1) h r d) := by
  refine (shapeCast_apply _ hc (ix2 r d) (ix4 (0 : Fin 1) (0 : Fin 1) r d) ?_).trans ?_
  · rw [Shape.rowMajor_val_two, Shape.rowMajor_val_four]
    show ((0 * 1 + 0) * 256 + r.val) * 64 + d.val = r.val * 64 + d.val
    omega
  · show x0 _ = x0 _
    refine congrArg x0 (funext fun a => Fin.ext ?_)
    match a with
    | ⟨0, _⟩ => show 0 + 1 * 0 = 0; rfl
    | ⟨1, _⟩ => show h.val + 1 * 0 = h.val; omega
    | ⟨2, _⟩ => show 0 + 1 * r.val = r.val; omega
    | ⟨3, _⟩ => show 0 + 1 * d.val = d.val; omega

/-- The merged heads of the staged block at (r, m): head m / 64, row r, lane m % 64 of the block.  The sixteen pieces are
    the views of heads 0 … 15 in order, each 64 columns wide, so the piece holding column m is number m / 64 and the
    column inside it is m % 64; off the concatenated axis the row is kept. -/
theorem concat_apply (x0 : Vec Ideal S1x16x256x64 .bf16) (r : Fin 256) (m : Fin 1024) :
    k2_pay1 (k2_pay3 (View.ld x0 r2_0)) (k2_pay4 (View.ld x0 r2_1)) (k2_pay5 (View.ld x0 r2_2)) (k2_pay6 (View.ld x0 r2_3))
        (k2_pay7 (View.ld x0 r2_4)) (k2_pay8 (View.ld x0 r2_5)) (k2_pay9 (View.ld x0 r2_6)) (k2_pay10 (View.ld x0 r2_7))
        (k2_pay11 (View.ld x0 r2_8)) (View.ld x0 r2_9) (View.ld x0 r2_10) (View.ld x0 r2_11) (View.ld x0 r2_12)
        (View.ld x0 r2_13) (View.ld x0 r2_14) (View.ld x0 r2_15) (ix2 r m)
      = x0 (ix4 (0 : Fin 1) (Cert.Spec.headOf m) r (Cert.Spec.laneOf m)) := by
  unfold k2_pay1 k2_pay3 k2_pay4 k2_pay5 k2_pay6 k2_pay7 k2_pay8 k2_pay9 k2_pay10 k2_pay11
  refine (concatenate_ofFn_apply (t := S256x1024) (s₁ := S256x64) (1 : Fin S256x1024.rank)
    (headPiece x0 shapeCasts_S1x1x256x64_S256x64) _ rfl 64 rfl (ix2 r m) (Cert.Spec.headOf m) rfl
    (ix2 r (Cert.Spec.laneOf m)) rfl ?_).trans ?_
  · intro b hb
    match b with
    | ⟨0, _⟩ => rfl
    | ⟨1, _⟩ => exact absurd rfl hb
  · exact headPiece_apply x0 _ _ r _

end Cert.KernelIdeal.OutConcat

end
-- ==== Proof.OutValue.lean ====
/-
  The output projection kernel leaves the output array of the specification.

  At one grid point (batch b, group t of 256 rows) the body holds those rows of all 16 heads of the context, the
  whole second weight and the bias row.  It lays the heads side by side — column m of the 256 × 1024 array is
  lane m % 64 of head m / 64 —, multiplies by the weight (outputs × inputs, the last axis of both contracted) and
  adds the bias to every row: entry (r, o) of what it stores is
    Σ_m ctx(b, m / 64, 256·t + r, m % 64) · w'(o, m) + bias(o),
  the specification's output entry at row 256·t + r.  The 16 points' blocks cover the array, each entry once.
-/
import proofs.«163006_j84232898609328_2_alg».proof.Proof.Gen.KernelIdeal.Frame
import proofs.«163006_j84232898609328_2_alg».proof.Proof.Spec
import proofs.«163006_j84232898609328_2_alg».proof.Proof.LibRowsByRows
import proofs.«163006_j84232898609328_2_alg».proof.Proof.OutConcat
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.OutValue

open Idealize.ShloMosaic Idealize.ShloMosaic.TcCoe Idealize.SL.Sem Idealize.ShloMosaic.ValueIdx
open Idealize.ShloMosaic.Pipeline (Dat)
open Cert.KernelIdeal Cert.KernelIdeal.Gen

/-! ## The product's dimension record -/

local notation "Dout" => dot_S256x1024_S1024x1024_S256x1024_1_1_0_0_n_n

theorem out_l0 (j : S256x1024.Idx) (q : (Dout).contr.Idx) : ((Dout).lhsIdx j q 0).val = (j 0).val := by
  unfold DotDims.lhsIdx
  rw [dif_neg (show ¬(0 : Fin S256x1024.rank) ∈ (Dout).lhsBatch by decide), dif_pos (show (0 : Fin S256x1024.rank) ∈ (Dout).lhsNonContracting by decide)]
  rfl
theorem out_l1 (j : S256x1024.Idx) (q : (Dout).contr.Idx) : ((Dout).lhsIdx j q 1).val = (q ⟨0, by decide⟩).val :=
  (Dout).lhsIdx_val_of_single rfl j q
theorem out_r0 (j : S256x1024.Idx) (q : (Dout).contr.Idx) : ((Dout).rhsIdx j q 0).val = (j 1).val := by
  unfold DotDims.rhsIdx
  rw [dif_neg (show ¬(0 : Fin S1024x1024.rank) ∈ (Dout).rhsBatch by decide), dif_pos (show (0 : Fin S1024x1024.rank) ∈ (Dout).rhsNonContracting by decide)]
  rfl
theorem out_r1 (j : S256x1024.Idx) (q : (Dout).contr.Idx) : ((Dout).rhsIdx j q 1).val = (q ⟨0, by decide⟩).val :=
  (Dout).rhsIdx_val_of_single rfl j q

/-! ## The body's result at an entry -/

/-- An [a, b] array viewed as a [1, a, b] block reads (z, r, o) at (r, o). -/
theorem cast_add1 {α : Type} {a b : ℕ} (v : (⟨2, ![a, b]⟩ : Shape).Idx → α)
    (h : (⟨2, ![a, b]⟩ : Shape).ShapeCasts ⟨3, ![1, a, b]⟩) (z : Fin 1) (r : Fin a) (o : Fin b) :
    shapeCast ⟨3, ![1, a, b]⟩ v h (ix3 z r o) = v (ix2 r o) :=
  shapeCast_apply v h _ _ (by
    have hz : z.val = 0 := by omega
    rw [Shape.rowMajor_val_three, Shape.rowMajor_val_two]
    show r.val * b + o.val = (z.val * a + r.val) * b + o.val
    rw [hz]; simp)

section Body

variable (a : FVec Ideal S256x1024 .bf16) (w : Vec Ideal S1024x1024 .bf16) (brow : Vec Ideal S1x1024 .f32)

/-- The product with the weight plus the bias row, viewed as a block, as the body forms it. -/
theorem pay2_unfold :
    k2_pay2 a w brow
      = shapeCast S1x256x1024 (addf (FloatOps.matmul (Dout) none a
            (shapeCast S1024x1024 w shapeCasts_S1024x1024_S1024x1024 : FVec Ideal S1024x1024 .bf16)
            (constant (F := Ideal) S256x1024 .f32 0x00000000#32) : FVec Ideal S256x1024 .f32)
          (broadcastTo S256x1024 (shapeCast S1x1024 brow shapeCasts_S1x1024_S1x1024) broadcasts_S1x1024_S256x1024))
          shapeCasts_S256x1024_S1x256x1024 := rfl

/-- Entry (r, o) of what the body stores: Σ_m a(r, m) · w(o, m) + bias(o). -/
theorem pay2_apply (z : Fin 1) (r : Fin 256) (o : Fin 1024) :
    k2_pay2 a w brow (ix3 z r o) = (∑ m : Fin 1024, a (ix2 r m) * w (ix2 o m)) + brow (ix2 (0 : Fin 1) o) := by
  rw [pay2_unfold, cast_add1]
  refine congrArg₂ (fun s t : EReal => s + t) ?_ ?_
  · refine (Cert.RowsByRows.matmul_rows_rows_apply (Dout) none rfl rfl out_l0 out_l1 out_r0 out_r1 _ _ r o).trans ?_
    exact Finset.sum_congr rfl fun m _ => by rw [shapeCast_self]
  · exact Cert.RowsByRows.biasRow_apply brow _ _ r o

end Body

/-- The heads of a block laid side by side, as the body forms them from its sixteen loads. -/
def sideBySide (x0 : Vec Ideal S1x16x256x64 .bf16) : FVec Ideal S256x1024 .bf16 :=
  k2_pay1 (k2_pay3 (View.ld x0 r2_0)) (k2_pay4 (View.ld x0 r2_1)) (k2_pay5 (View.ld x0 r2_2)) (k2_pay6 (View.ld x0 r2_3))
    (k2_pay7 (View.ld x0 r2_4)) (k2_pay8 (View.ld x0 r2_5)) (k2_pay9 (View.ld x0 r2_6)) (k2_pay10 (View.ld x0 r2_7))
    (k2_pay11 (View.ld x0 r2_8)) (View.ld x0 r2_9) (View.ld x0 r2_10) (View.ld x0 r2_11) (View.ld x0 r2_12)
    (View.ld x0 r2_13) (View.ld x0 r2_14) (View.ld x0 r2_15)

/-- Column m of the side-by-side array is lane m % 64 of head m / 64. -/
theorem sideBySide_apply (x0 : Vec Ideal S1x16x256x64 .bf16) (r : Fin 256) (m : Fin 1024) :
    sideBySide x0 (ix2 r m) = x0 (ix4 (0 : Fin 1) (Cert.Spec.headOf m) r (Cert.Spec.laneOf m)) :=
  Cert.KernelIdeal.OutConcat.concat_apply x0 r m

/-! ## From blocks to the array -/

section Array

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: the output block's index is (b, t, 0) with b < 2, t < 8; the context block
    follows its batch and its group of rows and holds all heads and lanes; the weight and the bias row are whole. -/
theorem idx_facts : ∀ t : Fin cfg2.N,
    win2_3.index t (0 : Fin 3) < 2 ∧ win2_3.index t (1 : Fin 3) < 8 ∧ win2_3.index t (2 : Fin 3) = 0
    ∧ win2_0.index t (0 : Fin 4) = win2_3.index t (0 : Fin 3) ∧ win2_0.index t (1 : Fin 4) = 0
    ∧ win2_0.index t (2 : Fin 4) = win2_3.index t (1 : Fin 3) ∧ win2_0.index t (3 : Fin 4) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- Every (batch, group of rows) is some point's. -/
theorem idx_onto : ∀ (q0 : Fin 2) (q1 : Fin 8), ∃ t : Fin cfg2.N, win2_3.index t = ![q0.val, q1.val, 0] :=
  (by decide +kernel : ∀ (q0 : Fin 2) (q1 : Fin 8), ∃ t : Fin grid2.N, win2_3.index t = ![q0.val, q1.val, 0])

/-- What point t writes back is its block of the specification's output array. -/
theorem flushed_eq (c : Dev nD) (t : Fin cfg2.N) :
    (dat2 (F := Ideal) V c).flushed 3 t = ((cfg2.win 3).blk t).view.read (Elt Ideal)
      (Cert.Spec.out (V c main_v3) (V c main_v1) (Cert.Spec.rowVec (V c main_v4))) := by
  show (cfg2.win 3).cut (grid2.coords t) ((dat2 (F := Ideal) V c).after 3 t) = _
  rw [after2_3]
  unfold out2_3
  rw [View.canon_unit_zero hz3]
  simp only [View.ld_unit_zero (S := S1024x1024) hz2, View.ld_unit_zero (S := S1x1024) hz2]
  obtain ⟨b0, b1, b2, a0, a1, a2, a3, w0, w1, r0, r1⟩ := idx_facts t
  funext y
  obtain ⟨z, r, o, rfl⟩ : ∃ (z : Fin 1) (r : Fin 256) (o : Fin 1024), y = ix3 z r o := ⟨y 0, y 1, y 2, eq_ix3 y⟩
  have hz : z.val = 0 := by omega
  have hr := r.isLt
  have ho := o.isLt
  show k2_pay2 (sideBySide (iblk2 V c 0 t)) (iblk2 V c 1 t) (iblk2 V c 2 t) (ix3 z r o)
      = Cert.Spec.out (V c main_v3) (V c main_v1) (Cert.Spec.rowVec (V c main_v4)) (((cfg2.win 3).blk t).view.emb (ix3 z r o))
  -- the entry's coordinates in the array: batch, row, output column
  let B : Fin 2 := ⟨win2_3.index t (0 : Fin 3) * 1 + 1 * z.val, by omega⟩
  let N : Fin 2048 := ⟨win2_3.index t (1 : Fin 3) * 256 + 1 * r.val, by omega⟩
  have hemb : ((cfg2.win 3).blk t).view.emb (ix3 z r o) = ix3 B N o := by
    funext a; apply Fin.ext
    match a with
    | ⟨0, _⟩ => rfl
    | ⟨1, _⟩ => rfl
    | ⟨2, _⟩ => show win2_3.index t (2 : Fin 3) * 1024 + 1 * o.val = o.val; omega
  rw [hemb, Cert.Spec.out_apply]
  -- the context block's rows are rows of the context array, all heads and lanes
  have ha : ∀ (h : Fin 16) (d : Fin 64), iblk2 V c 0 t (ix4 (0 : Fin 1) h r d)
      = (V c main_v3 : S2x16x2048x64.Idx → EReal) (ix4 B h N d) := fun h d => by
    show (V c main_v3 : S2x16x2048x64.Idx → EReal) (((cfg2.win 0).blk t).view.emb (ix4 (0 : Fin 1) h r d)) = _
    refine congrArg _ (funext fun a => Fin.ext ?_)
    have hh := h.isLt
    have hd := d.isLt
    match a with
    | ⟨0, _⟩ => show win2_0.index t (0 : Fin 4) * 1 + 1 * 0 = win2_3.index t (0 : Fin 3) * 1 + 1 * z.val; omega
    | ⟨1, _⟩ => show win2_0.index t (1 : Fin 4) * 16 + 1 * h.val = h.val; omega
    | ⟨2, _⟩ => show win2_0.index t (2 : Fin 4) * 256 + 1 * r.val = win2_3.index t (1 : Fin 3) * 256 + 1 * r.val; omega
    | ⟨3, _⟩ => show win2_0.index t (3 : Fin 4) * 64 + 1 * d.val = d.val; omega
  -- the weight and the bias row are whole
  have hw : ∀ m : Fin 1024, iblk2 V c 1 t (ix2 o m) = (V c main_v1 : S1024x1024.Idx → EReal) (ix2 o m) := fun m => by
    show (V c main_v1 : S1024x1024.Idx → EReal) (((cfg2.win 1).blk t).view.emb (ix2 o m)) = _
    refine congrArg _ (funext fun a => Fin.ext ?_)
    match a with
    | ⟨0, _⟩ => show win2_1.index t (0 : Fin 2) * 1024 + 1 * o.val = o.val; omega
    | ⟨1, _⟩ => show win2_1.index t (1 : Fin 2) * 1024 + 1 * m.val = m.val; omega
  have hb : iblk2 V c 2 t (ix2 (0 : Fin 1) o) = (V c main_v4 : S1x1024.Idx → EReal) (ix2 (0 : Fin 1) o) := by
    show (V c main_v4 : S1x1024.Idx → EReal) (((cfg2.win 2).blk t).view.emb (ix2 (0 : Fin 1) o)) = _
    refine congrArg _ (funext fun a => Fin.ext ?_)
    match a with
    | ⟨0, _⟩ => show win2_2.index t (0 : Fin 2) * 1 + 1 * 0 = 0; omega
    | ⟨1, _⟩ => show win2_2.index t (1 : Fin 2) * 1024 + 1 * o.val = o.val; omega
  refine (pay2_apply (sideBySide (iblk2 V c 0 t)) (iblk2 V c 1 t) (iblk2 V c 2 t) z r o).trans ?_
  unfold Cert.Spec.outAt
  refine congrArg₂ (fun s t : EReal => s + t) (Finset.sum_congr rfl fun m _ => ?_) ?_
  · rw [sideBySide_apply (iblk2 V c 0 t) r m, ha (Cert.Spec.headOf m) (Cert.Spec.laneOf m), hw m]
  · rw [Cert.Spec.rowVec_apply]; exact hb

/-- An index of the array is in point t's block iff each coordinate is in the block's range on its axis. -/
theorem mem_blk (t : Fin cfg2.N) (i : S2x2048x1024.Idx) :
    i ∈ ((cfg2.win 3).blk t).view.set ↔ ∀ a : Fin 3, win2_3.index t a * S1x256x1024.size a ≤ (i a).val
      ∧ (i a).val < win2_3.index t a * S1x256x1024.size a + S1x256x1024.size a := by
  show i ∈ ((View.whole main_v5).slice (win2_3.rect t)).set ↔ _
  rw [View.set_slice_whole, Rect.mem_set_unit]
  exact Iff.rfl

/-- Every entry (b, n, o) is in the block of the point (b, n / 256). -/
theorem cover (i : S2x2048x1024.Idx) :
    ∃ t : Fin cfg2.N, (cfg2.win 3).flush t = true ∧ i ∈ ((cfg2.win 3).blk t).view.set := by
  have h0 : (i 0).val < 2 := (i 0).isLt
  have h1 : (i 1).val < 2048 := (i 1).isLt
  have h2 : (i 2).val < 1024 := (i 2).isLt
  obtain ⟨t, ht⟩ := idx_onto ⟨(i 0).val, h0⟩ ⟨(i 1).val / 256, by omega⟩
  have q0 : win2_3.index t (0 : Fin 3) = (i 0).val := congrFun ht 0
  have q1 : win2_3.index t (1 : Fin 3) = (i 1).val / 256 := congrFun ht 1
  have q2 : win2_3.index t (2 : Fin 3) = 0 := congrFun ht 2
  refine ⟨t, flush2_3 t, ?_⟩
  rw [mem_blk]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 256 ≤ (i 1).val ∧ (i 1).val < win2_3.index t (1 : Fin 3) * 256 + 256; omega
  | ⟨2, _⟩ => show win2_3.index t (2 : Fin 3) * 1024 ≤ (i 2).val ∧ (i 2).val < win2_3.index t (2 : Fin 3) * 1024 + 1024; omega

/-- The output projection kernel's output array, after the run of its 16 points, is the specification's output
    of the context array, the weight and the bias row it was entered with. -/
theorem final_out (c : Dev nD) : (dat2 (F := Ideal) V c).arrAt 3 cfg2.N
    = Cert.Spec.out (V c main_v3) (V c main_v1) (Cert.Spec.rowVec (V c main_v4)) :=
  (dat2 (F := Ideal) V c).arrAt_eq_of_cover 3 _ (fun t _ => flushed_eq V c t) cover

end Array

end Cert.KernelIdeal.OutValue

end
-- ==== Proof.KernelRun.lean ====
/-
  The kernel's run, read: the result array after the three kernels.

  The program is three kernels in a row with two casts of the weights before them and one re-shaping of the bias
  between the second and the third.  The buffers at each boundary are a fold from the launch memory: a kernel
  replaces its output arrays by what its write-backs leave and touches nothing else.  Read backwards from the
  result: the third kernel's output is the output projection of the second kernel's output, which is the context
  of the first kernel's three outputs, which are the three sections of the projection of the input; the weights
  reach the kernels through format changes, which are the identity on the extended reals, and the bias through a
  view of the same 1024 numbers as one row.
-/
import proofs.«163006_j84232898609328_2_alg».proof.Proof.Gen.KernelIdeal.Frame
import proofs.«163006_j84232898609328_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and EVERY buffer that outlives the
    kernels ends at the contents the last boundary names: the segments' chain from the launch memory, the last
    thread state read against the final state. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The same run with the result array and the six argument arrays named: the result at the last boundary's
    contents, each argument as launched. -/
theorem run_last : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)
    (run_buffers m ρ)

/-! ## The boundaries' contents, read at the extended reals -/

section Chain

variable (m : (ℓ : Loc nD τ sig) → Buf (Elt Ideal) ℓ) (ρ : Dev nD → PrngReg) (c : Dev nD)

/-- No operation of the first host stretch writes a buffer other than the two cast weights. -/
theorem W1_keep (b : Ref sig .tc) (h0 : b ≠ main_v0) (h1 : b ≠ main_v1) :
    W1 (F := Ideal) m ρ c (Proc.devRef .tc b) = m ((c : Thread nD τ).loc b) :=
  (StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))).trans rfl

/-- The cast weights are the weights: a change of format is the identity on the extended reals. -/
theorem W1_v0 : (W1 (F := Ideal) m ρ c (Proc.devRef .tc main_v0) : S3072x1024.Idx → EReal) = m ((c : Thread nD τ).loc main_arg1) := by
  show StableHlo.after hostOps0 (W0 m ρ c) (Proc.devRef .tc main_v0) = _
  after_results
  rfl

theorem W1_v1 : (W1 (F := Ideal) m ρ c (Proc.devRef .tc main_v1) : S1024x1024.Idx → EReal) = m ((c : Thread nD τ).loc main_arg2) := by
  show StableHlo.after hostOps0 (W0 m ρ c) (Proc.devRef .tc main_v1) = _
  after_results
  rfl

/-- The second host stretch writes only the bias row. -/
theorem W4_keep (b : Ref sig .tc) (h : b ≠ main_v4) :
    W4 (F := Ideal) m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h))

/-- The bias row is the bias vector viewed [1, 1024]. -/
theorem W4_v4 : (W4 (F := Ideal) m ρ c (Proc.devRef .tc main_v4) : S1x1024.Idx → EReal)
    = shapeCast S1x1024 (W3 m ρ c (Proc.devRef .tc main_arg3) : S1024.Idx → EReal) shapeCasts_S1024_S1x1024 := by
  show StableHlo.after hostOps2 (W3 m ρ c) (Proc.devRef .tc main_v4) = _
  after_results
  rfl

/-- A vector viewed as one row and read back as a vector is the vector. -/
theorem rowVec_cast (v : S1024.Idx → EReal) :
    Cert.Spec.rowVec (shapeCast S1x1024 v shapeCasts_S1024_S1x1024) = v := by
  funext u
  obtain ⟨o, rfl⟩ : ∃ o : Fin 1024, u = ValueIdx.ix1 o := ⟨u 0, ValueIdx.eq_ix1 u⟩
  rw [Cert.Spec.rowVec_apply]
  exact shapeCast_apply v _ _ _ (by
    rw [Shape.rowMajor_val_one, Shape.rowMajor_val_two]
    show o.val = 0 * 1024 + o.val
    omega)

variable
  (hq : ∀ (V : (c : Dev nD) → (b : Ref sig .tc) → Buf (Elt Ideal) ((c : Thread nD τ).loc b)) (c : Dev nD),
    (dat0 (F := Ideal) V c).arrAt 2 cfg0.N = Cert.Spec.heads 0 (V c main_arg0) (V c main_v0))
  (hk : ∀ (V : (c : Dev nD) → (b : Ref sig .tc) → Buf (Elt Ideal) ((c : Thread nD τ).loc b)) (c : Dev nD),
    (dat0 (F := Ideal) V c).arrAt 3 cfg0.N = Cert.Spec.heads 1 (V c main_arg0) (V c main_v0))
  (hv : ∀ (V : (c : Dev nD) → (b : Ref sig .tc) → Buf (Elt Ideal) ((c : Thread nD τ).loc b)) (c : Dev nD),
    (dat0 (F := Ideal) V c).arrAt 4 cfg0.N = Cert.Spec.heads 2 (V c main_arg0) (V c main_v0))
  (hctx : ∀ (V : (c : Dev nD) → (b : Ref sig .tc) → Buf (Elt Ideal) ((c : Thread nD τ).loc b)) (c : Dev nD),
    (dat1 (F := Ideal) V c).arrAt 5 cfg1.N
      = Cert.Spec.ctx (V c main_v2_0) (V c main_v2_1) (V c main_v2_2) (V c main_arg4) (V c main_arg5))
  (hout : ∀ (V : (c : Dev nD) → (b : Ref sig .tc) → Buf (Elt Ideal) ((c : Thread nD τ).loc b)) (c : Dev nD),
    (dat2 (F := Ideal) V c).arrAt 3 cfg2.N
      = Cert.Spec.out (V c main_v3) (V c main_v1) (Cert.Spec.rowVec (V c main_v4)))

include hq hk hv hctx hout in
/-- The result array at the last boundary is the specification's block of the six argument arrays. -/
theorem result_eq : (W5 (F := Ideal) m ρ c (Proc.devRef .tc main_v5) : S2x2048x1024.Idx → EReal)
    = Cert.Spec.block (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  -- the first kernel is entered with the input as launched and the first weight through its cast
  have e_x : V1 (F := Ideal) m ρ c main_arg0 = m ((c : Thread nD τ).loc main_arg0) := W1_keep m ρ c main_arg0 (by decide) (by decide)
  have e_w : (V1 (F := Ideal) m ρ c main_v0 : S3072x1024.Idx → EReal) = m ((c : Thread nD τ).loc main_arg1) := W1_v0 m ρ c
  -- its three outputs
  have e_q : (V2 (F := Ideal) m ρ c main_v2_0 : S2x16x2048x64.Idx → EReal)
      = Cert.Spec.heads 0 (m ((c : Thread nD τ).loc main_arg0)) (m ((c : Thread nD τ).loc main_arg1)) := by
    refine (W2_arr m ρ c 2).trans ((hq (V1 m ρ) c).trans ?_); rw [e_x, e_w]
  have e_k : (V2 (F := Ideal) m ρ c main_v2_1 : S2x16x2048x64.Idx → EReal)
      = Cert.Spec.heads 1 (m ((c : Thread nD τ).loc main_arg0)) (m ((c : Thread nD τ).loc main_arg1)) := by
    refine (W2_arr m ρ c 3).trans ((hk (V1 m ρ) c).trans ?_); rw [e_x, e_w]
  have e_v : (V2 (F := Ideal) m ρ c main_v2_2 : S2x16x2048x64.Idx → EReal)
      = Cert.Spec.heads 2 (m ((c : Thread nD τ).loc main_arg0)) (m ((c : Thread nD τ).loc main_arg1)) := by
    refine (W2_arr m ρ c 4).trans ((hv (V1 m ρ) c).trans ?_); rw [e_x, e_w]
  -- the gain and the offset reach the second kernel as launched
  have e_g : V2 (F := Ideal) m ρ c main_arg4 = m ((c : Thread nD τ).loc main_arg4) :=
    (W2_of_ne m ρ c main_arg4 (by decide)).trans (W1_keep m ρ c main_arg4 (by decide) (by decide))
  have e_b : V2 (F := Ideal) m ρ c main_arg5 = m ((c : Thread nD τ).loc main_arg5) :=
    (W2_of_ne m ρ c main_arg5 (by decide)).trans (W1_keep m ρ c main_arg5 (by decide) (by decide))
  -- the second kernel's output
  have e_ctx : (V3 (F := Ideal) m ρ c main_v3 : S2x16x2048x64.Idx → EReal)
      = Cert.Spec.ctx (Cert.Spec.heads 0 (m ((c : Thread nD τ).loc main_arg0)) (m ((c : Thread nD τ).loc main_arg1)))
          (Cert.Spec.heads 1 (m ((c : Thread nD τ).loc main_arg0)) (m ((c : Thread nD τ).loc main_arg1)))
          (Cert.Spec.heads 2 (m ((c : Thread nD τ).loc main_arg0)) (m ((c : Thread nD τ).loc main_arg1)))
          (m ((c : Thread nD τ).loc main_arg4)) (m ((c : Thread nD τ).loc main_arg5)) := by
    refine (W3_arr m ρ c 5).trans ((hctx (V2 m ρ) c).trans ?_); rw [e_q, e_k, e_v, e_g, e_b]
  -- what the third kernel is entered with
  have e_a : (V4 (F := Ideal) m ρ c main_v3 : S2x16x2048x64.Idx → EReal) = V3 m ρ c main_v3 := W4_keep m ρ c main_v3 (by decide)
  have e_wo : (V4 (F := Ideal) m ρ c main_v1 : S1024x1024.Idx → EReal) = m ((c : Thread nD τ).loc main_arg2) :=
    (W4_keep m ρ c main_v1 (by decide)).trans ((W3_of_ne m ρ c main_v1 (by decide)).trans
      ((W2_of_ne m ρ c main_v1 (by decide)).trans (W1_v1 m ρ c)))
  have e_bias : (W3 (F := Ideal) m ρ c (Proc.devRef .tc main_arg3) : S1024.Idx → EReal) = m ((c : Thread nD τ).loc main_arg3) :=
    (W3_of_ne m ρ c main_arg3 (by decide)).trans ((W2_of_ne m ρ c main_arg3 (by decide)).trans
      (W1_keep m ρ c main_arg3 (by decide) (by decide)))
  have e_row : Cert.Spec.rowVec (V4 (F := Ideal) m ρ c main_v4 : S1x1024.Idx → EReal) = m ((c : Thread nD τ).loc main_arg3) := by
    rw [show (V4 (F := Ideal) m ρ c main_v4 : S1x1024.Idx → EReal) = _ from W4_v4 m ρ c, rowVec_cast, e_bias]
  -- the third kernel's output
  refine (W5_arr m ρ c 3).trans ((hout (V4 m ρ) c).trans ?_)
  rw [e_a, e_ctx, e_wo, e_row]
  rfl

end Chain

end Cert.KernelIdeal.RunValue

end
-- ==== Proof.RefValue.lean ====
/-
  The reference computes the attention block of the specification, entry by entry on the extended reals.

  The reference's result is followed from the output backwards to the argument arrays.  Every step is one of three
  kinds.  A rearrangement (a reshape, a slice, a transposition, a broadcast) reads its operand at an entry whose
  coordinates are computed from the row-major position: the only content is arithmetic of quotients and remainders by
  the literal extents.  A contraction is a finite sum of products over the contracted coordinate.  An entrywise
  operation on the extended reals (product, quotient, square root, maximum, sum) is the same operation in the
  specification.  The lemmas below read each mathematically meaningful stage at coordinates:
    the projection P(b, n, o);
    its three sections as arrays of heads, section s at (b, h, n, d) being P(b, n, s·1024 + h·64 + d);
    the products dots(b, h, i, j) of a query row with a key row;
    the norm den(b, h, i) of a row of dots, floored by ε;
    the weights dots / den · g(h) + β(h);
    their contraction with the values, ctx(b, h, i, d);
    the heads laid side by side, (b, n, m) reading ctx(b, m / 64, n, m % 64);
    the output projection with its bias.
-/
import proofs.«163006_j84232898609328_2_alg».proof.Proof.Gen.ReferenceIdeal.Read
import proofs.«163006_j84232898609328_2_alg».proof.Proof.Spec

noncomputable section

open scoped BigOperators

namespace Cert.ReferenceIdeal.RefValue

open Idealize.ShloMosaic Idealize.ShloMosaic.ValueIdx Cert.ReferenceIdeal Cert.ReferenceIdeal.Read

variable (x0 : (⟨S2x2048x1024, .f32⟩ : BufTy).Contents (Elt Ideal)) (x1 : (⟨S3072x1024, .f32⟩ : BufTy).Contents (Elt Ideal))
  (x2 : (⟨S1024x1024, .f32⟩ : BufTy).Contents (Elt Ideal)) (x3 : (⟨S1024, .f32⟩ : BufTy).Contents (Elt Ideal))
  (x4 x5 : (⟨S1x16x1x1, .f32⟩ : BufTy).Contents (Elt Ideal))

/-- The first contraction is the projection: entry (b, n, o) is Σ_m x(b, n, m) · w(o, m). -/
theorem proj_at (b : Fin 2) (n : Fin 2048) (o : Fin 3072) :
    val_main_v0 (F := Ideal) x0 x1 (ix3 b n o) = Spec.proj x0 x1 b n o := by
  show _ = ∑ m : Fin 1024, x0 (ix3 b n m) * x1 (ix2 o m)
  rw [val_main_v0_apply]
  refine Finset.sum_congr rfl fun k _ => ?_
  have el : lidx_main_v0 (ix3 b n o) k = ix3 b n k := funext fun a => by
    match a with
    | ⟨0, _⟩ => rfl
    | ⟨1, _⟩ => rfl
    | ⟨2, _⟩ => rfl
  have er : ridx_main_v0 (ix3 b n o) k = ix2 o k := funext fun a => by
    match a with
    | ⟨0, _⟩ => rfl
    | ⟨1, _⟩ => rfl
  rw [el, er]

/-- The projection's last axis split as 3 × 16 × 64: entry (b, n, s, h, d) sits at row-major position
    ((((b·2048 + n)·3 + s)·16 + h)·64 + d, whose quotient by 3072 is b·2048 + n and whose remainder is
    s·1024 + h·64 + d. -/
theorem split_at (b : Fin 2) (n : Fin 2048) (s : Fin 3) (h : Fin 16) (d : Fin 64) :
    val_main_v1 (F := Ideal) x0 x1 (ix5 b n s h d) = Spec.proj x0 x1 b n (Spec.headCol s h d) := by
  rw [val_main_v1_apply]
  have e : idx_main_v1 (ix5 b n s h d) = ix3 b n (Spec.headCol s h d) := funext fun a => Fin.ext (by
    have hb := b.isLt; have hn := n.isLt; have hs := s.isLt; have hh := h.isLt; have hd := d.isLt
    match a with
    | ⟨0, _⟩ =>
      show ((((b.val * 2048 + n.val) * 3 + s.val) * 16 + h.val) * 64 + d.val) / 6291456 = b.val
      omega
    | ⟨1, _⟩ =>
      show ((((b.val * 2048 + n.val) * 3 + s.val) * 16 + h.val) * 64 + d.val) / 3072 % 2048 = n.val
      omega
    | ⟨2, _⟩ =>
      show ((((b.val * 2048 + n.val) * 3 + s.val) * 16 + h.val) * 64 + d.val) % 3072 = s.val * 1024 + h.val * 64 + d.val
      omega)
  rw [e]
  exact proj_at x0 x1 b n (Spec.headCol s h d)

/-! ## The three sections of heads

  Section s of the split projection, with its unit axis dropped and the head axis moved in front of the rows: entry
  (b, h, n, d) reads the split projection at (b, n, s, h, d).  Dropping the unit axis keeps the row-major position
  ((b·2048 + n)·16 + h)·64 + d, from which b, n, h, d are recovered by quotients and remainders. -/

/-- The queries: section 0. -/
theorem queries_at (b : Fin 2) (h : Fin 16) (n : Fin 2048) (d : Fin 64) :
    val_main_v4 (F := Ideal) x0 x1 (ix4 b h n d) = Spec.headsAt 0 x0 x1 b h n d := by
  rw [val_main_v4_apply, val_main_v3_apply, val_main_v2_apply]
  have e : idx_main_v2 (idx_main_v3 (idx_main_v4 (ix4 b h n d))) = ix5 b n (0 : Fin 3) h d :=
    funext fun a => Fin.ext (by
      have hb := b.isLt; have hn := n.isLt; have hh := h.isLt; have hd := d.isLt
      match a with
      | ⟨0, _⟩ =>
        show (((b.val * 2048 + n.val) * 16 + h.val) * 64 + d.val) / 2097152 = b.val
        omega
      | ⟨1, _⟩ =>
        show (((b.val * 2048 + n.val) * 16 + h.val) * 64 + d.val) / 1024 % 2048 = n.val
        omega
      | ⟨2, _⟩ => rfl
      | ⟨3, _⟩ =>
        show (((b.val * 2048 + n.val) * 16 + h.val) * 64 + d.val) / 64 % 16 = h.val
        omega
      | ⟨4, _⟩ =>
        show (((b.val * 2048 + n.val) * 16 + h.val) * 64 + d.val) % 64 = d.val
        omega)
  rw [e]
  exact split_at x0 x1 b n (0 : Fin 3) h d

/-- The keys: section 1. -/
theorem keys_at (b : Fin 2) (h : Fin 16) (n : Fin 2048) (d : Fin 64) :
    val_main_v7 (F := Ideal) x0 x1 (ix4 b h n d) = Spec.headsAt 1 x0 x1 b h n d := by
  rw [val_main_v7_apply, val_main_v6_apply, val_main_v5_apply]
  have e : idx_main_v5 (idx_main_v6 (idx_main_v7 (ix4 b h n d))) = ix5 b n (1 : Fin 3) h d :=
    funext fun a => Fin.ext (by
      have hb := b.isLt; have hn := n.isLt; have hh := h.isLt; have hd := d.isLt
      match a with
      | ⟨0, _⟩ =>
        show (((b.val * 2048 + n.val) * 16 + h.val) * 64 + d.val) / 2097152 = b.val
        omega
      | ⟨1, _⟩ =>
        show (((b.val * 2048 + n.val) * 16 + h.val) * 64 + d.val) / 1024 % 2048 = n.val
        omega
      | ⟨2, _⟩ => rfl
      | ⟨3, _⟩ =>
        show (((b.val * 2048 + n.val) * 16 + h.val) * 64 + d.val) / 64 % 16 = h.val
        omega
      | ⟨4, _⟩ =>
        show (((b.val * 2048 + n.val) * 16 + h.val) * 64 + d.val) % 64 = d.val
        omega)
  rw [e]
  exact split_at x0 x1 b n (1 : Fin 3) h d

/-- The values: section 2. -/
theorem values_at (b : Fin 2) (h : Fin 16) (n : Fin 2048) (d : Fin 64) :
    val_main_v10 (F := Ideal) x0 x1 (ix4 b h n d) = Spec.headsAt 2 x0 x1 b h n d := by
  rw [val_main_v10_apply, val_main_v9_apply, val_main_v8_apply]
  have e : idx_main_v8 (idx_main_v9 (idx_main_v10 (ix4 b h n d))) = ix5 b n (2 : Fin 3) h d :=
    funext fun a => Fin.ext (by
      have hb := b.isLt; have hn := n.isLt; have hh := h.isLt; have hd := d.isLt
      match a with
      | ⟨0, _⟩ =>
        show (((b.val * 2048 + n.val) * 16 + h.val) * 64 + d.val) / 2097152 = b.val
        omega
      | ⟨1, _⟩ =>
        show (((b.val * 2048 + n.val) * 16 + h.val) * 64 + d.val) / 1024 % 2048 = n.val
        omega
      | ⟨2, _⟩ => rfl
      | ⟨3, _⟩ =>
        show (((b.val * 2048 + n.val) * 16 + h.val) * 64 + d.val) / 64 % 16 = h.val
        omega
      | ⟨4, _⟩ =>
        show (((b.val * 2048 + n.val) * 16 + h.val) * 64 + d.val) % 64 = d.val
        omega)
  rw [e]
  exact split_at x0 x1 b n (2 : Fin 3) h d

/-! ## Normalized attention -/

/-- The contraction of a query row with a key row over the 64 lanes of a head. -/
theorem dots_at (b : Fin 2) (h : Fin 16) (i j : Fin 2048) :
    val_main_v11 (F := Ideal) x0 x1 (ix4 b h i j) = Spec.dots (Spec.heads 0 x0 x1) (Spec.heads 1 x0 x1) b h i j := by
  show _ = ∑ d : Fin 64, Spec.headsAt 0 x0 x1 b h i d * Spec.headsAt 1 x0 x1 b h j d
  rw [val_main_v11_apply]
  refine Finset.sum_congr rfl fun k _ => ?_
  have el : lidx_main_v11 (ix4 b h i j) k = ix4 b h i k := funext fun a => by
    match a with
    | ⟨0, _⟩ => rfl
    | ⟨1, _⟩ => rfl
    | ⟨2, _⟩ => rfl
    | ⟨3, _⟩ => rfl
  have er : ridx_main_v11 (ix4 b h i j) k = ix4 b h j k := funext fun a => by
    match a with
    | ⟨0, _⟩ => rfl
    | ⟨1, _⟩ => rfl
    | ⟨2, _⟩ => rfl
    | ⟨3, _⟩ => rfl
  rw [el, er, queries_at, keys_at]

/-- The sum of the squares of a row of dots, started from the zero word. -/
theorem sumsq_at (b : Fin 2) (h : Fin 16) (i : Fin 2048) :
    val_main_v13 (F := Ideal) x0 x1 (ix3 b h i)
      = Spec.zero + ∑ j : Fin 2048, Spec.dots (Spec.heads 0 x0 x1) (Spec.heads 1 x0 x1) b h i j * Spec.dots (Spec.heads 0 x0 x1) (Spec.heads 1 x0 x1) b h i j := by
  rw [val_main_v13_apply]
  refine congrArg (Spec.zero + ·) (Finset.sum_congr rfl fun k _ => ?_)
  have e : idx_main_v13 (ix3 b h i) k = ix4 b h i k := funext fun a => by
    match a with
    | ⟨0, _⟩ => rfl
    | ⟨1, _⟩ => rfl
    | ⟨2, _⟩ => rfl
    | ⟨3, _⟩ => rfl
  rw [e]
  show val_main_v11 (F := Ideal) x0 x1 (ix4 b h i k) * val_main_v11 (F := Ideal) x0 x1 (ix4 b h i k) = _
  rw [dots_at]

/-- The norm of a row of dots with its floor ε, kept with a trailing unit axis: the square root of the sum of squares,
    then the maximum with the constant. -/
theorem den_at (b : Fin 2) (h : Fin 16) (i : Fin 2048) (z : Fin 1) :
    val_main_v17 (F := Ideal) x0 x1 (ix4 b h i z) = Spec.den (Spec.heads 0 x0 x1) (Spec.heads 1 x0 x1) b h i := by
  show max (Ideal.sqrt (val_main_v14 (F := Ideal) x0 x1 (ix4 b h i z))) (val_main_v16 (F := Ideal) (ix4 b h i z))
    = max (Ideal.sqrt (Spec.zero + ∑ j : Fin 2048, Spec.dots (Spec.heads 0 x0 x1) (Spec.heads 1 x0 x1) b h i j * Spec.dots (Spec.heads 0 x0 x1) (Spec.heads 1 x0 x1) b h i j)) Spec.eps
  rw [val_main_v14_apply, val_main_v16_apply, val_main_cst_0_apply]
  have e : idx_main_v14 (ix4 b h i z) = ix3 b h i := funext fun a => by
    match a with
    | ⟨0, _⟩ => rfl
    | ⟨1, _⟩ => rfl
    | ⟨2, _⟩ => rfl
  rw [e, sumsq_at]
  rfl

/-- The weights: dots over the norm of its row, times the head's gain, plus the head's offset; the norm, the gain and
    the offset are read where the broadcasts place them: (b, h, i, 0) and (0, h, 0, 0). -/
theorem weight_at (b : Fin 2) (h : Fin 16) (i j : Fin 2048) :
    val_main_v23 (F := Ideal) x0 x1 x4 x5 (ix4 b h i j) = Spec.weight (Spec.heads 0 x0 x1) (Spec.heads 1 x0 x1) x4 x5 b h i j := by
  show Ideal.div (val_main_v11 (F := Ideal) x0 x1 (ix4 b h i j)) (val_main_v18 (F := Ideal) x0 x1 (ix4 b h i j))
        * val_main_v20 (F := Ideal) x4 (ix4 b h i j) + val_main_v22 (F := Ideal) x5 (ix4 b h i j)
    = Ideal.div (Spec.dots (Spec.heads 0 x0 x1) (Spec.heads 1 x0 x1) b h i j) (Spec.den (Spec.heads 0 x0 x1) (Spec.heads 1 x0 x1) b h i) * x4 (ix4 (0 : Fin 1) h (0 : Fin 1) (0 : Fin 1))
        + x5 (ix4 (0 : Fin 1) h (0 : Fin 1) (0 : Fin 1))
  rw [val_main_v18_apply, val_main_v20_apply, val_main_v22_apply]
  have e18 : idx_main_v18 (ix4 b h i j) = ix4 b h i (0 : Fin 1) := funext fun a => by
    match a with
    | ⟨0, _⟩ => rfl
    | ⟨1, _⟩ => rfl
    | ⟨2, _⟩ => rfl
    | ⟨3, _⟩ => rfl
  have e20 : idx_main_v20 (ix4 b h i j) = ix4 (0 : Fin 1) h (0 : Fin 1) (0 : Fin 1) := funext fun a => by
    match a with
    | ⟨0, _⟩ => rfl
    | ⟨1, _⟩ => rfl
    | ⟨2, _⟩ => rfl
    | ⟨3, _⟩ => rfl
  have e22 : idx_main_v22 (ix4 b h i j) = ix4 (0 : Fin 1) h (0 : Fin 1) (0 : Fin 1) := funext fun a => by
    match a with
    | ⟨0, _⟩ => rfl
    | ⟨1, _⟩ => rfl
    | ⟨2, _⟩ => rfl
    | ⟨3, _⟩ => rfl
  rw [e18, e20, e22, dots_at, den_at]

/-- The contraction of a row of weights with a column of values over the 2048 positions. -/
theorem ctx_at (b : Fin 2) (h : Fin 16) (i : Fin 2048) (d : Fin 64) :
    val_main_v24 (F := Ideal) x0 x1 x4 x5 (ix4 b h i d) = Spec.ctxAt (Spec.heads 0 x0 x1) (Spec.heads 1 x0 x1) (Spec.heads 2 x0 x1) x4 x5 b h i d := by
  show _ = ∑ j : Fin 2048, Spec.weight (Spec.heads 0 x0 x1) (Spec.heads 1 x0 x1) x4 x5 b h i j * Spec.headsAt 2 x0 x1 b h j d
  rw [val_main_v24_apply]
  refine Finset.sum_congr rfl fun k _ => ?_
  have el : lidx_main_v24 (ix4 b h i d) k = ix4 b h i k := funext fun a => by
    match a with
    | ⟨0, _⟩ => rfl
    | ⟨1, _⟩ => rfl
    | ⟨2, _⟩ => rfl
    | ⟨3, _⟩ => rfl
  have er : ridx_main_v24 (ix4 b h i d) k = ix4 b h k d := funext fun a => by
    match a with
    | ⟨0, _⟩ => rfl
    | ⟨1, _⟩ => rfl
    | ⟨2, _⟩ => rfl
    | ⟨3, _⟩ => rfl
  rw [el, er, weight_at, values_at]

/-! ## The output projection -/

/-- The heads laid side by side: the rows moved back in front of the heads, and the head and lane axes merged.  Entry
    (b, n, m) sits at row-major position (b·2048 + n)·1024 + m; its head is m / 64 and its lane m % 64. -/
theorem merged_at (b : Fin 2) (n : Fin 2048) (m : Fin 1024) :
    val_main_v26 (F := Ideal) x0 x1 x4 x5 (ix3 b n m)
      = Spec.ctxAt (Spec.heads 0 x0 x1) (Spec.heads 1 x0 x1) (Spec.heads 2 x0 x1) x4 x5 b (Spec.headOf m) n (Spec.laneOf m) := by
  rw [val_main_v26_apply, val_main_v25_apply]
  have e : idx_main_v25 (idx_main_v26 (ix3 b n m)) = ix4 b (Spec.headOf m) n (Spec.laneOf m) :=
    funext fun a => Fin.ext (by
      have hb := b.isLt; have hn := n.isLt; have hm := m.isLt
      match a with
      | ⟨0, _⟩ =>
        show ((b.val * 2048 + n.val) * 1024 + m.val) / 2097152 = b.val
        omega
      | ⟨1, _⟩ =>
        show ((b.val * 2048 + n.val) * 1024 + m.val) / 64 % 16 = m.val / 64
        omega
      | ⟨2, _⟩ =>
        show ((b.val * 2048 + n.val) * 1024 + m.val) / 1024 % 2048 = n.val
        omega
      | ⟨3, _⟩ =>
        show ((b.val * 2048 + n.val) * 1024 + m.val) % 64 = m.val % 64
        omega)
  rw [e]
  exact ctx_at x0 x1 x4 x5 b (Spec.headOf m) n (Spec.laneOf m)

/-- The output: the merged context contracted with the second weight over its 1024 columns, plus the bias of the
    output column (the bias broadcast along the batch and the rows). -/
theorem out_at (b : Fin 2) (n : Fin 2048) (o : Fin 1024) :
    val_main_v30 (F := Ideal) x0 x1 x2 x3 x4 x5 (ix3 b n o)
      = Spec.outAt (Spec.ctx (Spec.heads 0 x0 x1) (Spec.heads 1 x0 x1) (Spec.heads 2 x0 x1) x4 x5) x2 x3 b n o := by
  rw [val_main_v30_apply, val_main_v27_apply, val_main_v29_apply, val_main_v28_apply]
  have e : idx_main_v28 (idx_main_v29 (ix3 b n o)) = ix1 o := funext fun a => by
    match a with
    | ⟨0, _⟩ => rfl
  rw [e]
  unfold Spec.outAt
  refine congrArg₂ (fun s t : EReal => s + t) (Finset.sum_congr rfl fun k _ => ?_) rfl
  have el : lidx_main_v27 (ix3 b n o) k = ix3 b n k := funext fun a => by
    match a with
    | ⟨0, _⟩ => rfl
    | ⟨1, _⟩ => rfl
    | ⟨2, _⟩ => rfl
  have er : ridx_main_v27 (ix3 b n o) k = ix2 o k := funext fun a => by
    match a with
    | ⟨0, _⟩ => rfl
    | ⟨1, _⟩ => rfl
  rw [el, er, merged_at, Spec.ctx_apply]

/-- The reference's result is the block of the specification. -/
theorem result_eq (x0 : (⟨S2x2048x1024, .f32⟩ : BufTy).Contents (Elt Ideal)) (x1 : (⟨S3072x1024, .f32⟩ : BufTy).Contents (Elt Ideal))
    (x2 : (⟨S1024x1024, .f32⟩ : BufTy).Contents (Elt Ideal)) (x3 : (⟨S1024, .f32⟩ : BufTy).Contents (Elt Ideal))
    (x4 x5 : (⟨S1x16x1x1, .f32⟩ : BufTy).Contents (Elt Ideal)) :
    Cert.ReferenceIdeal.Read.val_main_v30 (F := Ideal) x0 x1 x2 x3 x4 x5 = Cert.Spec.block x0 x1 x2 x3 x4 x5 := by
  funext i
  obtain ⟨b, n, o, rfl⟩ : ∃ (b : Fin 2) (n : Fin 2048) (o : Fin 1024), i = ix3 b n o := ⟨i 0, i 1, i 2, eq_ix3 i⟩
  rw [show Spec.block x0 x1 x2 x3 x4 x5 = Spec.out (Spec.ctx (Spec.heads 0 x0 x1) (Spec.heads 1 x0 x1) (Spec.heads 2 x0 x1) x4 x5) x2 x3 from rfl, Spec.out_apply]
  exact out_at x0 x1 x2 x3 x4 x5 b n o

end Cert.ReferenceIdeal.RefValue

end
-- ==== Proof.lean ====
/-
  An attention block as three kernels against its plain reference, on the extended reals.

  Both programs compute, from an input x [2, 2048, 1024], a weight w [3072, 1024], a second weight w' [1024, 1024],
  a bias, and a gain g and an offset β per head:
    the projection P = x · wᵀ, split into queries, keys and values of 16 heads of 64 lanes;
    per batch and head, dots = q · kᵀ, each row divided by max(√(Σ dots²), ε), times g, plus β;
    the weighted sum of the values; the heads laid side by side; times w'ᵀ, plus the bias.
  The kernels do it tile by tile — 256 rows of x at a time for the projection, 512 query rows of one head at a
  time for the attention, 256 rows of all heads at a time for the output — with the weights rounded to a narrower
  format first; the reference does it with whole-array operations, re-laying the projection into heads by a
  reshape, three slices and transposes.  On the extended reals a change of format is the identity and a product
  into a zero accumulator is a plain finite sum, so each side is the SAME function of the six arrays, entry by
  entry (Proof/Spec.lean): no law beyond re-indexing sums is used, and the inputs' finiteness is never opened.

  The parts: Proof/ProjValue.lean, AttnValue.lean, OutValue.lean — what each kernel leaves in its output arrays,
  for any contents it is entered with; Proof/KernelRun.lean — the run, and the three composed through the
  buffers' contents between the kernels; Proof/RefValue.lean — the reference's operations, read entry by entry.
  The kernel's sanctioned idealization rewrote nothing, so that conjunct is trivial; the frames are the
  generated ones, the reference's its generated run with the result dropped.
-/
import proofs.«163006_j84232898609328_2_alg».proof.Defs
import proofs.«163006_j84232898609328_2_alg».proof.Proof.Gen.Kernel
import proofs.«163006_j84232898609328_2_alg».proof.Proof.Gen.Kernel.Frame
import proofs.«163006_j84232898609328_2_alg».proof.Proof.Gen.KernelIdeal
import proofs.«163006_j84232898609328_2_alg».proof.Proof.Gen.KernelIdeal.Frame
import proofs.«163006_j84232898609328_2_alg».proof.Proof.Gen.ReferenceIdeal
import proofs.«163006_j84232898609328_2_alg».proof.Proof.Gen.Pre_finite_inputs
import proofs.«163006_j84232898609328_2_alg».proof.Proof.Gen.ReferenceIdeal.Run
import proofs.«163006_j84232898609328_2_alg».proof.Proof.Gen.ReferenceIdeal.Read
import proofs.«163006_j84232898609328_2_alg».proof.Proof.Spec
import proofs.«163006_j84232898609328_2_alg».proof.Proof.ProjValue
import proofs.«163006_j84232898609328_2_alg».proof.Proof.AttnValue
import proofs.«163006_j84232898609328_2_alg».proof.Proof.OutValue
import proofs.«163006_j84232898609328_2_alg».proof.Proof.KernelRun
import proofs.«163006_j84232898609328_2_alg».proof.Proof.RefValue
import Idealize.ShloMosaic.Adequacy
import Idealize.ShloMosaic.Init

noncomputable section

namespace Cert.Proof

open Idealize.ShloMosaic Idealize.ShloMosaic.TcCoe Idealize.SL.Sem

/-- The kernels as printed run to the end without a fault and leave the six arguments as they were. -/
theorem frame_k : Cert.frame_Kernel := fun m ρ _ => Cert.Kernel.Gen.frame m ρ

/-- So do the kernels read on the extended reals. -/
theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the six arguments both programs end with the block of those arguments as their
    result: the kernels by the composition of what each leaves, the reference by reading its operations. -/
theorem algebraic : Cert.algebraic_KernelIdeal_ReferenceIdeal := by
  intro m ρ m' ρ' _ hagree
  refine ⟨fun c => Cert.Spec.block (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c =>
      ⟨(h c).1.trans (Cert.KernelIdeal.RunValue.result_eq m ρ c Cert.KernelIdeal.ProjValue.final_q Cert.KernelIdeal.ProjValue.final_k
          Cert.KernelIdeal.ProjValue.final_v Cert.KernelIdeal.AttnValue.final_ctx Cert.KernelIdeal.OutValue.final_out), (h c).2⟩)
      (Cert.KernelIdeal.RunValue.run_last (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v30_eq, Cert.ReferenceIdeal.RefValue.result_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
